-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S8x256 : Shape := ⟨2, ![8, 256]⟩
abbrev S256 : Shape := ⟨1, ![256]⟩
abbrev S60x256 : Shape := ⟨2, ![60, 256]⟩
abbrev S60 : Shape := ⟨1, ![60]⟩
abbrev S16x60 : Shape := ⟨2, ![16, 60]⟩
abbrev S16 : Shape := ⟨1, ![16]⟩
abbrev S65536x16 : Shape := ⟨2, ![65536, 16]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S256 : S_.BroadcastsInDim S256 (![] : Fin 0 → Fin S256.rank)
  reducesTo_S256_S_d0 : S256.ReducesTo [0] S_
  bcast_S_S60x256 : S_.BroadcastsInDim S60x256 (![] : Fin 0 → Fin S60x256.rank)
  reducesTo_S60x256_S_d0_1 : S60x256.ReducesTo [0, 1] S_
  bcast_S_S60 : S_.BroadcastsInDim S60 (![] : Fin 0 → Fin S60.rank)
  reducesTo_S60_S_d0 : S60.ReducesTo [0] S_
  bcast_S_S16x60 : S_.BroadcastsInDim S16x60 (![] : Fin 0 → Fin S16x60.rank)
  reducesTo_S16x60_S_d0_1 : S16x60.ReducesTo [0, 1] S_
  bcast_S_S16 : S_.BroadcastsInDim S16 (![] : Fin 0 → Fin S16.rank)
  reducesTo_S16_S_d0 : S16.ReducesTo [0] S_
  bcast_S_S65536x16 : S_.BroadcastsInDim S65536x16 (![] : Fin 0 → Fin S65536x16.rank)
  reducesTo_S65536x16_S_d0_1 : S65536x16.ReducesTo [0, 1] S_

variable [Facts]

def fn_part2 {F : FTy → Type} [FloatOps F] (main_arg7 : FVec F S16 .f32) (main_arg8 : FVec F S65536x16 .f32) (main_arg9 : FVec F S65536x16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S65536x16 .f32 := Host.absf main_arg8
  let main_cst_14 : FVec F S_ .f32 := constant S_ .f32 0x7F800000#32
  let main_v40 : FVec F S65536x16 .f32 := broadcastInDim S65536x16 ![] bcast_S_S65536x16 main_cst_14
  let main_v41 : IVec S65536x16 1 := cmpf .olt main_v39 main_v40
  let main_c_15 : IVec S_ 1 := constantI S_ 1 1#1
  let main_v42 : IVec S_ 1 := (fun x v => Host.reduce IntOp.andi x v reducesTo_S65536x16_S_d0_1 h_S_) main_v41 main_c_15
  let main_v43 : IVec S_ 1 := andi main_v38 main_v42
  let main_v44 : FVec F S65536x16 .f32 := Host.absf main_arg9
  let main_cst_16 : FVec F S_ .f32 := constant S_ .f32 0x7F800000#32
  let main_v45 : FVec F S65536x16 .f32 := broadcastInDim S65536x16 ![] bcast_S_S65536x16 main_cst_16
  let main_v46 : IVec S65536x16 1 := cmpf .olt main_v44 main_v45
  let main_c_17 : IVec S_ 1 := constantI S_ 1 1#1
  let main_v47 : IVec S_ 1 := (fun x v => Host.reduce IntOp.andi x v reducesTo_S65536x16_S_d0_1 h_S_) main_v46 main_c_17
  let main_v48 : IVec S_ 1 := andi main_v43 main_v47
  main_v48

def fn_part1 {F : FTy → Type} [FloatOps F] (main_arg4 : FVec F S60x256 .f32) (main_arg5 : FVec F S60 .f32) (main_arg6 : FVec F S16x60 .f32) (main_arg7 : FVec F S16 .f32) (main_arg8 : FVec F S65536x16 .f32) (main_arg9 : FVec F S65536x16 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S60x256 .f32 := Host.absf main_arg4
  let main_cst_6 : FVec F S_ .f32 := constant S_ .f32 0x7F800000#32
  let main_v20 : FVec F S60x256 .f32 := broadcastInDim S60x256 ![] bcast_S_S60x256 main_cst_6
  let main_v21 : IVec S60x256 1 := cmpf .olt main_v19 main_v20
  let main_c_7 : IVec S_ 1 := constantI S_ 1 1#1
  let main_v22 : IVec S_ 1 := (fun x v => Host.reduce IntOp.andi x v reducesTo_S60x256_S_d0_1 h_S_) main_v21 main_c_7
  let main_v23 : IVec S_ 1 := andi main_v18 main_v22
  let main_v24 : FVec F S60 .f32 := Host.absf main_arg5
  let main_cst_8 : FVec F S_ .f32 := constant S_ .f32 0x7F800000#32
  let main_v25 : FVec F S60 .f32 := broadcastInDim S60 ![] bcast_S_S60 main_cst_8
  let main_v26 : IVec S60 1 := cmpf .olt main_v24 main_v25
  let main_c_9 : IVec S_ 1 := constantI S_ 1 1#1
  let main_v27 : IVec S_ 1 := (fun x v => Host.reduce IntOp.andi x v reducesTo_S60_S_d0 h_S_) main_v26 main_c_9
  let main_v28 : IVec S_ 1 := andi main_v23 main_v27
  let main_v29 : FVec F S16x60 .f32 := Host.absf main_arg6
  let main_cst_10 : FVec F S_ .f32 := constant S_ .f32 0x7F800000#32
  let main_v30 : FVec F S16x60 .f32 := broadcastInDim S16x60 ![] bcast_S_S16x60 main_cst_10
  let main_v31 : IVec S16x60 1 := cmpf .olt main_v29 main_v30
  let main_c_11 : IVec S_ 1 := constantI S_ 1 1#1
  let main_v32 : IVec S_ 1 := (fun x v => Host.reduce IntOp.andi x v reducesTo_S16x60_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x2048x4096 .f32) (main_arg1 : FVec F S8x256 .f32) (main_arg2 : FVec F S256 .f32) (main_arg3 : FVec F S256 .f32) (main_arg4 : FVec F S60x256 .f32) (main_arg5 : FVec F S60 .f32) (main_arg6 : FVec F S16x60 .f32) (main_arg7 : FVec F S16 .f32) (main_arg8 : FVec F S65536x16 .f32) (main_arg9 : FVec F S65536x16 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S8x2048x4096 : Shape := ⟨3, ![8, 2048, 4096]⟩
abbrev S8x256 : Shape := ⟨2, ![8, 256]⟩
abbrev S256 : Shape := ⟨1, ![256]⟩
abbrev S60x256 : Shape := ⟨2, ![60, 256]⟩
abbrev S60 : Shape := ⟨1, ![60]⟩
abbrev S16x60 : Shape := ⟨2, ![16, 60]⟩
abbrev S16 : Shape := ⟨1, ![16]⟩
abbrev S65536x16 : Shape := ⟨2, ![65536, 16]⟩
abbrev S_ : Shape := ⟨0, ![]⟩
abbrev S8 : Shape := ⟨1, ![8]⟩
abbrev S8x1 : Shape := ⟨2, ![8, 1]⟩
abbrev S1x256 : Shape := ⟨2, ![1, 256]⟩
abbrev S256x60 : Shape := ⟨2, ![256, 60]⟩
abbrev S8x60 : Shape := ⟨2, ![8, 60]⟩
abbrev S1x60 : Shape := ⟨2, ![1, 60]⟩
abbrev S60x16 : Shape := ⟨2, ![60, 16]⟩
abbrev S8x16 : Shape := ⟨2, ![8, 16]⟩
abbrev S1x16 : Shape := ⟨2, ![1, 16]⟩
abbrev S16x65536 : Shape := ⟨2, ![16, 65536]⟩
abbrev S8x65536 : Shape := ⟨2, ![8, 65536]⟩
abbrev S8x16x4096 : Shape := ⟨3, ![8, 16, 4096]⟩
abbrev S1x256x4096 : Shape := ⟨3, ![1, 256, 4096]⟩
abbrev S1x16x4096 : Shape := ⟨3, ![1, 16, 4096]⟩
abbrev S256x4096 : Shape := ⟨2, ![256, 4096]⟩
abbrev S16x4096 : Shape := ⟨2, ![16, 4096]⟩
abbrev S256x16 : Shape := ⟨2, ![256, 16]⟩

abbrev nBuf : Space → Nat
  | .hbm => 94
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S8x256, .f32⟩
  | .hbm, ⟨2, _⟩ => ⟨S256, .f32⟩
  | .hbm, ⟨3, _⟩ => ⟨S256, .f32⟩
  | .hbm, ⟨4, _⟩ => ⟨S60x256, .f32⟩
  | .hbm, ⟨5, _⟩ => ⟨S60, .f32⟩
  | .hbm, ⟨6, _⟩ => ⟨S16x60, .f32⟩
  | .hbm, ⟨7, _⟩ => ⟨S16, .f32⟩
  | .hbm, ⟨8, _⟩ => ⟨S65536x16, .f32⟩
  | .hbm, ⟨9, _⟩ => ⟨S65536x16, .f32⟩
  | .hbm, ⟨10, _⟩ => ⟨S_, .f32⟩
  | .hbm, ⟨11, _⟩ => ⟨S8, .f32⟩
  | .hbm, ⟨12, _⟩ => ⟨S8x1, .f32⟩
  | .hbm, ⟨13, _⟩ => ⟨S_, .f32⟩
  | .hbm, ⟨14, _⟩ => ⟨S8x1, .f32⟩
  | .hbm, ⟨15, _⟩ => ⟨S8x1, .f32⟩
  | .hbm, ⟨16, _⟩ => ⟨S_, .i32⟩
  | .hbm, ⟨17, _⟩ => ⟨S_, .f32⟩
  | .hbm, ⟨18, _⟩ => ⟨S8, .f32⟩
  | .hbm, ⟨19, _⟩ => ⟨S8x1, .f32⟩
  | .hbm, ⟨20, _⟩ => ⟨S_, .f32⟩
  | .hbm, ⟨21, _⟩ => ⟨S8x1, .f32⟩
  | .hbm, ⟨22, _⟩ => ⟨S8x1, .f32⟩
  | .hbm, ⟨23, _⟩ => ⟨S8x256, .f32⟩
  | .hbm, ⟨24, _⟩ => ⟨S8x256, .f32⟩
  | .hbm, ⟨25, _⟩ => ⟨S8x256, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8, .f32⟩
  | .hbm, ⟨31, _⟩ => ⟨S8x1, .f32⟩
  | .hbm, ⟨32, _⟩ => ⟨S8x1, .f32⟩
  | .hbm, ⟨33, _⟩ => ⟨S8x1, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S8x1, .f32⟩
  | .hbm, ⟨39, _⟩ => ⟨S8x1, .f32⟩
  | .hbm, ⟨40, _⟩ => ⟨S8x256, .f32⟩
  | .hbm, ⟨41, _⟩ => ⟨S8x256, .f32⟩
  | .hbm, ⟨42, _⟩ => ⟨S_, .f32⟩
  | .hbm, ⟨43, _⟩ => ⟨S8x1, .f32⟩
  | .hbm, ⟨44, _⟩ => ⟨S8x1, .f32⟩
  | .hbm, ⟨45, _⟩ => ⟨S8x1, .f32⟩
  | .hbm, ⟨46, _⟩ => ⟨S8x256, .f32⟩
  | .hbm, ⟨47, _⟩ => ⟨S8x256, .f32⟩
  | .hbm, ⟨48, _⟩ => ⟨S1x256, .f32⟩
  | .hbm, ⟨49, _⟩ => ⟨S8x256, .f32⟩
  | .hbm, ⟨50, _⟩ => ⟨S8x256, .f32⟩
  | .hbm, ⟨51, _⟩ => ⟨S1x256, .f32⟩
  | .hbm, ⟨52, _⟩ => ⟨S8x256, .f32⟩
  | .hbm, ⟨53, _⟩ => ⟨S8x256, .f32⟩
  | .hbm, ⟨54, _⟩ => ⟨S256x60, .f32⟩
  | .hbm, ⟨55, _⟩ => ⟨S8x60, .f32⟩
  | .hbm, ⟨56, _⟩ => ⟨S1x60, .f32⟩
  | .hbm, ⟨57, _⟩ => ⟨S8x60, .f32⟩
  | .hbm, ⟨58, _⟩ => ⟨S8x60, .f32⟩
  | .hbm, ⟨59, _⟩ => ⟨S_, .f32⟩
  | .hbm, ⟨60, _⟩ => ⟨S8x60, .f32⟩
  | .hbm, ⟨61, _⟩ => ⟨S8x60, .f32⟩
  | .hbm, ⟨62, _⟩ => ⟨S60x16, .f32⟩
  | .hbm, ⟨63, _⟩ => ⟨S8x16, .f32⟩
  | .hbm, ⟨64, _⟩ => ⟨S1x16, .f32⟩
  | .hbm, ⟨65, _⟩ => ⟨S8x16, .f32⟩
  | .hbm, ⟨66, _⟩ => ⟨S8x16, .f32⟩
  | .hbm, ⟨67, _⟩ => ⟨S_, .f32⟩
  | .hbm, ⟨68, _⟩ => ⟨S8x16, .f32⟩
  | .hbm, ⟨69, _⟩ => ⟨S8x16, .f32⟩
  | .hbm, ⟨70, _⟩ => ⟨S_, .f32⟩
  | .hbm, ⟨71, _⟩ => ⟨S8, .f32⟩
  | .hbm, ⟨72, _⟩ => ⟨S_, .f32⟩
  | .hbm, ⟨73, _⟩ => ⟨S8, .f32⟩
  | .hbm, ⟨74, _⟩ => ⟨S8, .f32⟩
  | .hbm, ⟨75, _⟩ => ⟨S8x1, .f32⟩
  | .hbm, ⟨76, _⟩ => ⟨S8x16, .f32⟩
  | .hbm, ⟨77, _⟩ => ⟨S8x16, .f32⟩
  | .hbm, ⟨78, _⟩ => ⟨S8x16, .f32⟩
  | .hbm, ⟨79, _⟩ => ⟨S_, .f32⟩
  | .hbm, ⟨80, _⟩ => ⟨S8, .f32⟩
  | .hbm, ⟨81, _⟩ => ⟨S8x1, .f32⟩
  | .hbm, ⟨82, _⟩ => ⟨S8x16, .f32⟩
  | .hbm, ⟨83, _⟩ => ⟨S8x16, .f32⟩
  | .hbm, ⟨84, _⟩ => ⟨S16x65536, .f32⟩
  | .hbm, ⟨85, _⟩ => ⟨S8x65536, .f32⟩
  | .hbm, ⟨86, _⟩ => ⟨S8x16x4096, .f32⟩
  | .hbm, ⟨87, _⟩ => ⟨S16x65536, .f32⟩
  | .hbm, ⟨88, _⟩ => ⟨S8x65536, .f32⟩
  | .hbm, ⟨89, _⟩ => ⟨S8x16x4096, .f32⟩
  | .hbm, ⟨90, _⟩ => ⟨S_, .f32⟩
  | .hbm, ⟨91, _⟩ => ⟨S8x16x4096, .f32⟩
  | .hbm, ⟨92, _⟩ => ⟨S8x16x4096, .f32⟩
  | .hbm, ⟨93, _⟩ => ⟨S8x2048x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x16x4096, .f32⟩
  | .local _ .vmem, ⟨3, _⟩ => ⟨S1x16x4096, .f32⟩
  | .local _ .vmem, ⟨4, _⟩ => ⟨S1x16x4096, .f32⟩
  | .local _ .vmem, ⟨5, _⟩ => ⟨S1x16x4096, .f32⟩
  | .local _ .vmem, ⟨6, _⟩ => ⟨S1x256x4096, .f32⟩
  | .local _ .vmem, ⟨7, _⟩ => ⟨S1x256x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst_3 : Ref sig .tc := ⟨.hbm, 34, rfl⟩
abbrev main_call0_v13 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_cst_1 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_call1_cst : Ref sig .tc := ⟨.hbm, 59, rfl⟩
abbrev main_call1_v0 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_2 : Ref sig .tc := ⟨.hbm, 67, rfl⟩
abbrev main_v29 : Ref sig .tc := ⟨.hbm, 68, rfl⟩
abbrev main_v30 : Ref sig .tc := ⟨.hbm, 69, rfl⟩
abbrev main_cst_3 : Ref sig .tc := ⟨.hbm, 70, rfl⟩
abbrev main_v31 : Ref sig .tc := ⟨.hbm, 71, rfl⟩
abbrev main_cst_4 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_5 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_cst_6 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S8x256_S8_d1 : S8x256.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x256_0_1 : S8x1.BroadcastsInDim S8x256 (![0, 1] : Fin 2 → Fin S8x256.rank)
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  transposes_S60x256_S256x60_1_0 : S60x256.Transposes [1, 0] S256x60
  bcast_S60_S1x60_1 : S60.BroadcastsInDim S1x60 (![1] : Fin 1 → Fin S1x60.rank)
  bcast_S1x60_S8x60_0_1 : S1x60.BroadcastsInDim S8x60 (![0, 1] : Fin 2 → Fin S8x60.rank)
  bcast_S_S8x60 : S_.BroadcastsInDim S8x60 (![] : Fin 0 → Fin S8x60.rank)
  transposes_S16x60_S60x16_1_0 : S16x60.Transposes [1, 0] S60x16
  bcast_S16_S1x16_1 : S16.BroadcastsInDim S1x16 (![1] : Fin 1 → Fin S1x16.rank)
  bcast_S1x16_S8x16_0_1 : S1x16.BroadcastsInDim S8x16 (![0, 1] : Fin 2 → Fin S8x16.rank)
  bcast_S_S8x16 : S_.BroadcastsInDim S8x16 (![] : Fin 0 → Fin S8x16.rank)
  reducesTo_S8x16_S8_d1 : S8x16.ReducesTo [1] S8
  bcast_S_S8 : S_.BroadcastsInDim S8 (![] : Fin 0 → Fin S8.rank)
  bcast_S8x1_S8x16_0_1 : S8x1.BroadcastsInDim S8x16 (![0, 1] : Fin 2 → Fin S8x16.rank)
  transposes_S65536x16_S16x65536_1_0 : S65536x16.Transposes [1, 0] S16x65536
  shapeCasts_S8x65536_S8x16x4096 : S8x65536.ShapeCasts S8x16x4096
  bcast_S_S8x16x4096 : S_.BroadcastsInDim S8x16x4096 (![] : Fin 0 → Fin S8x16x4096.rank)
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  bitsLt_bf16_f32 : FTy.bits .bf16 < FTy.bits .f32
  inb_S1x16x4096_S1x16x4096_0_0_0 : ∀ a, (![0, 0, 0] : Fin 3 → Nat) a + S1x16x4096.size a ≤ S1x16x4096.size a
  h_S1x16x4096 : 0 < S1x16x4096.numel
  shapeCasts_S1x16x4096_S16x4096 : S1x16x4096.ShapeCasts S16x4096
  shapeCasts_S256x4096_S1x256x4096 : S256x4096.ShapeCasts S1x256x4096
  dot_S8x256_S256x60_S8x60_1_0_0_1_n_n_wf : DotDims.WF S8x256 S256x60 S8x60 [1] [0] [0] [1] [] []
  dot_S8x60_S60x16_S8x16_1_0_0_1_n_n_wf : DotDims.WF S8x60 S60x16 S8x16 [1] [0] [0] [1] [] []
  dot_S8x16_S16x65536_S8x65536_1_0_0_1_n_n_wf : DotDims.WF S8x16 S16x65536 S8x65536 [1] [0] [0] [1] [] []
  dot_S256x4096_S16x4096_S256x16_1_1_0_0_n_n_wf : DotDims.WF S256x4096 S16x4096 S256x16 [1] [1] [0] [0] [] []
  dot_S256x16_S16x4096_S256x4096_1_0_0_1_n_n_wf : DotDims.WF S256x16 S16x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S8x2048x4096.size a
  hwx0_0 : ∀ i : grid0.Coords, EltTy.bits .f32 = 32 ∨ (Rect.block (s := S8x2048x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x4096.size a ≤ S8x16x4096.size a
  hwx0_1 : ∀ i : grid0.Coords, EltTy.bits .f32 = 32 ∨ (Rect.block (s := S8x16x4096) S1x16x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x4096.size a ≤ S8x16x4096.size a
  hwx0_2 : ∀ i : grid0.Coords, EltTy.bits .f32 = 32 ∨ (Rect.block (s := S8x16x4096) S1x16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S8x2048x4096.size a
  hwx0_3 : ∀ i : grid0.Coords, EltTy.bits .f32 = 32 ∨ (Rect.block (s := S8x2048x4096) S1x256x4096.size (cc0_transform_3 i) (hinb0_3 i)).WholeWords (EltTy.packing .f32)

variable [Facts₀]

def dot_S8x256_S256x60_S8x60_1_0_0_1_n_n : DotDims S8x256 S256x60 S8x60 where
  lhsContracting := [1]
  rhsContracting := [0]
  lhsNonContracting := [0]
  rhsNonContracting := [1]
  lhsBatch := []
  rhsBatch := []
  wf := dot_S8x256_S256x60_S8x60_1_0_0_1_n_n_wf
def dot_S8x60_S60x16_S8x16_1_0_0_1_n_n : DotDims S8x60 S60x16 S8x16 where
  lhsContracting := [1]
  rhsContracting := [0]
  lhsNonContracting := [0]
  rhsNonContracting := [1]
  lhsBatch := []
  rhsBatch := []
  wf := dot_S8x60_S60x16_S8x16_1_0_0_1_n_n_wf
def dot_S8x16_S16x65536_S8x65536_1_0_0_1_n_n : DotDims S8x16 S16x65536 S8x65536 where
  lhsContracting := [1]
  rhsContracting := [0]
  lhsNonContracting := [0]
  rhsNonContracting := [1]
  lhsBatch := []
  rhsBatch := []
  wf := dot_S8x16_S16x65536_S8x65536_1_0_0_1_n_n_wf
def dot_S256x4096_S16x4096_S256x16_1_1_0_0_n_n : DotDims S256x4096 S16x4096 S256x16 where
  lhsContracting := [1]
  rhsContracting := [1]
  lhsNonContracting := [0]
  rhsNonContracting := [0]
  lhsBatch := []
  rhsBatch := []
  wf := dot_S256x4096_S16x4096_S256x16_1_1_0_0_n_n_wf
def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S1x16x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S1x16x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v50) S1x256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S8x256 : Shape := ⟨2, ![8, 256]⟩
abbrev S256 : Shape := ⟨1, ![256]⟩
abbrev S60x256 : Shape := ⟨2, ![60, 256]⟩
abbrev S60 : Shape := ⟨1, ![60]⟩
abbrev S16x60 : Shape := ⟨2, ![16, 60]⟩
abbrev S16 : Shape := ⟨1, ![16]⟩
abbrev S65536x16 : Shape := ⟨2, ![65536, 16]⟩
abbrev S_ : Shape := ⟨0, ![]⟩
abbrev S8 : Shape := ⟨1, ![8]⟩
abbrev S8x1 : Shape := ⟨2, ![8, 1]⟩
abbrev S1x256 : Shape := ⟨2, ![1, 256]⟩
abbrev S256x60 : Shape := ⟨2, ![256, 60]⟩
abbrev S8x60 : Shape := ⟨2, ![8, 60]⟩
abbrev S1x60 : Shape := ⟨2, ![1, 60]⟩
abbrev S60x16 : Shape := ⟨2, ![60, 16]⟩
abbrev S8x16 : Shape := ⟨2, ![8, 16]⟩
abbrev S1x16 : Shape := ⟨2, ![1, 16]⟩
abbrev S16x65536 : Shape := ⟨2, ![16, 65536]⟩
abbrev S8x65536 : Shape := ⟨2, ![8, 65536]⟩
abbrev S8x16x4096 : Shape := ⟨3, ![8, 16, 4096]⟩
abbrev S8x4096x16 : Shape := ⟨3, ![8, 4096, 16]⟩
abbrev S8x2048x16 : Shape := ⟨3, ![8, 2048, 16]⟩

abbrev nBuf : Space → Nat
  | .hbm => 96
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S8x256, .f32⟩
  | .hbm, ⟨2, _⟩ => ⟨S256, .f32⟩
  | .hbm, ⟨3, _⟩ => ⟨S256, .f32⟩
  | .hbm, ⟨4, _⟩ => ⟨S60x256, .f32⟩
  | .hbm, ⟨5, _⟩ => ⟨S60, .f32⟩
  | .hbm, ⟨6, _⟩ => ⟨S16x60, .f32⟩
  | .hbm, ⟨7, _⟩ => ⟨S16, .f32⟩
  | .hbm, ⟨8, _⟩ => ⟨S65536x16, .f32⟩
  | .hbm, ⟨9, _⟩ => ⟨S65536x16, .f32⟩
  | .hbm, ⟨10, _⟩ => ⟨S_, .f32⟩
  | .hbm, ⟨11, _⟩ => ⟨S8, .f32⟩
  | .hbm, ⟨12, _⟩ => ⟨S8x1, .f32⟩
  | .hbm, ⟨13, _⟩ => ⟨S_, .f32⟩
  | .hbm, ⟨14, _⟩ => ⟨S8x1, .f32⟩
  | .hbm, ⟨15, _⟩ => ⟨S8x1, .f32⟩
  | .hbm, ⟨16, _⟩ => ⟨S_, .i32⟩
  | .hbm, ⟨17, _⟩ => ⟨S_, .f32⟩
  | .hbm, ⟨18, _⟩ => ⟨S8, .f32⟩
  | .hbm, ⟨19, _⟩ => ⟨S8x1, .f32⟩
  | .hbm, ⟨20, _⟩ => ⟨S_, .f32⟩
  | .hbm, ⟨21, _⟩ => ⟨S8x1, .f32⟩
  | .hbm, ⟨22, _⟩ => ⟨S8x1, .f32⟩
  | .hbm, ⟨23, _⟩ => ⟨S8x256, .f32⟩
  | .hbm, ⟨24, _⟩ => ⟨S8x256, .f32⟩
  | .hbm, ⟨25, _⟩ => ⟨S8x256, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8, .f32⟩
  | .hbm, ⟨31, _⟩ => ⟨S8x1, .f32⟩
  | .hbm, ⟨32, _⟩ => ⟨S8x1, .f32⟩
  | .hbm, ⟨33, _⟩ => ⟨S8x1, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S8x1, .f32⟩
  | .hbm, ⟨39, _⟩ => ⟨S8x1, .f32⟩
  | .hbm, ⟨40, _⟩ => ⟨S8x256, .f32⟩
  | .hbm, ⟨41, _⟩ => ⟨S8x256, .f32⟩
  | .hbm, ⟨42, _⟩ => ⟨S_, .f32⟩
  | .hbm, ⟨43, _⟩ => ⟨S8x1, .f32⟩
  | .hbm, ⟨44, _⟩ => ⟨S8x1, .f32⟩
  | .hbm, ⟨45, _⟩ => ⟨S8x1, .f32⟩
  | .hbm, ⟨46, _⟩ => ⟨S8x256, .f32⟩
  | .hbm, ⟨47, _⟩ => ⟨S8x256, .f32⟩
  | .hbm, ⟨48, _⟩ => ⟨S1x256, .f32⟩
  | .hbm, ⟨49, _⟩ => ⟨S8x256, .f32⟩
  | .hbm, ⟨50, _⟩ => ⟨S8x256, .f32⟩
  | .hbm, ⟨51, _⟩ => ⟨S1x256, .f32⟩
  | .hbm, ⟨52, _⟩ => ⟨S8x256, .f32⟩
  | .hbm, ⟨53, _⟩ => ⟨S8x256, .f32⟩
  | .hbm, ⟨54, _⟩ => ⟨S256x60, .f32⟩
  | .hbm, ⟨55, _⟩ => ⟨S8x60, .f32⟩
  | .hbm, ⟨56, _⟩ => ⟨S1x60, .f32⟩
  | .hbm, ⟨57, _⟩ => ⟨S8x60, .f32⟩
  | .hbm, ⟨58, _⟩ => ⟨S8x60, .f32⟩
  | .hbm, ⟨59, _⟩ => ⟨S_, .f32⟩
  | .hbm, ⟨60, _⟩ => ⟨S8x60, .f32⟩
  | .hbm, ⟨61, _⟩ => ⟨S8x60, .f32⟩
  | .hbm, ⟨62, _⟩ => ⟨S60x16, .f32⟩
  | .hbm, ⟨63, _⟩ => ⟨S8x16, .f32⟩
  | .hbm, ⟨64, _⟩ => ⟨S1x16, .f32⟩
  | .hbm, ⟨65, _⟩ => ⟨S8x16, .f32⟩
  | .hbm, ⟨66, _⟩ => ⟨S8x16, .f32⟩
  | .hbm, ⟨67, _⟩ => ⟨S_, .f32⟩
  | .hbm, ⟨68, _⟩ => ⟨S8x16, .f32⟩
  | .hbm, ⟨69, _⟩ => ⟨S8x16, .f32⟩
  | .hbm, ⟨70, _⟩ => ⟨S_, .f32⟩
  | .hbm, ⟨71, _⟩ => ⟨S8, .f32⟩
  | .hbm, ⟨72, _⟩ => ⟨S_, .f32⟩
  | .hbm, ⟨73, _⟩ => ⟨S8, .f32⟩
  | .hbm, ⟨74, _⟩ => ⟨S8, .f32⟩
  | .hbm, ⟨75, _⟩ => ⟨S8x1, .f32⟩
  | .hbm, ⟨76, _⟩ => ⟨S8x16, .f32⟩
  | .hbm, ⟨77, _⟩ => ⟨S8x16, .f32⟩
  | .hbm, ⟨78, _⟩ => ⟨S8x16, .f32⟩
  | .hbm, ⟨79, _⟩ => ⟨S_, .f32⟩
  | .hbm, ⟨80, _⟩ => ⟨S8, .f32⟩
  | .hbm, ⟨81, _⟩ => ⟨S8x1, .f32⟩
  | .hbm, ⟨82, _⟩ => ⟨S8x16, .f32⟩
  | .hbm, ⟨83, _⟩ => ⟨S8x16, .f32⟩
  | .hbm, ⟨84, _⟩ => ⟨S16x65536, .f32⟩
  | .hbm, ⟨85, _⟩ => ⟨S8x65536, .f32⟩
  | .hbm, ⟨86, _⟩ => ⟨S8x16x4096, .f32⟩
  | .hbm, ⟨87, _⟩ => ⟨S8x4096x16, .f32⟩
  | .hbm, ⟨88, _⟩ => ⟨S16x65536, .f32⟩
  | .hbm, ⟨89, _⟩ => ⟨S8x65536, .f32⟩
  | .hbm, ⟨90, _⟩ => ⟨S8x16x4096, .f32⟩
  | .hbm, ⟨91, _⟩ => ⟨S8x2048x16, .f32⟩
  | .hbm, ⟨92, _⟩ => ⟨S8x2048x4096, .f32⟩
  | .hbm, ⟨93, _⟩ => ⟨S_, .f32⟩
  | .hbm, ⟨94, _⟩ => ⟨S8x2048x4096, .f32⟩
  | .hbm, ⟨95, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst_3 : Ref sig .tc := ⟨.hbm, 34, rfl⟩
abbrev main_call0_v13 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_cst_1 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_call1_cst : Ref sig .tc := ⟨.hbm, 59, rfl⟩
abbrev main_call1_v0 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_2 : Ref sig .tc := ⟨.hbm, 67, rfl⟩
abbrev main_v29 : Ref sig .tc := ⟨.hbm, 68, rfl⟩
abbrev main_v30 : Ref sig .tc := ⟨.hbm, 69, rfl⟩
abbrev main_cst_3 : Ref sig .tc := ⟨.hbm, 70, rfl⟩
abbrev main_v31 : Ref sig .tc := ⟨.hbm, 71, rfl⟩
abbrev main_cst_4 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_5 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_6 : Ref sig .tc := ⟨.hbm, 93, rfl⟩
abbrev main_v51 : Ref sig .tc := ⟨.hbm, 94, rfl⟩
abbrev main_v52 : Ref sig .tc := ⟨.hbm, 95, rfl⟩

abbrev nD : Nat := 1
abbrev τ : Topo := Topo.v7x

variable {F : FTy → Type} [FloatOps F]

class Facts₀ : Prop where
  reducesTo_S8x256_S8_d1 : S8x256.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x256_0_1 : S8x1.BroadcastsInDim S8x256 (![0, 1] : Fin 2 → Fin S8x256.rank)
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  transposes_S60x256_S256x60_1_0 : S60x256.Transposes [1, 0] S256x60
  bcast_S60_S1x60_1 : S60.BroadcastsInDim S1x60 (![1] : Fin 1 → Fin S1x60.rank)
  bcast_S1x60_S8x60_0_1 : S1x60.BroadcastsInDim S8x60 (![0, 1] : Fin 2 → Fin S8x60.rank)
  bcast_S_S8x60 : S_.BroadcastsInDim S8x60 (![] : Fin 0 → Fin S8x60.rank)
  transposes_S16x60_S60x16_1_0 : S16x60.Transposes [1, 0] S60x16
  bcast_S16_S1x16_1 : S16.BroadcastsInDim S1x16 (![1] : Fin 1 → Fin S1x16.rank)
  bcast_S1x16_S8x16_0_1 : S1x16.BroadcastsInDim S8x16 (![0, 1] : Fin 2 → Fin S8x16.rank)
  bcast_S_S8x16 : S_.BroadcastsInDim S8x16 (![] : Fin 0 → Fin S8x16.rank)
  reducesTo_S8x16_S8_d1 : S8x16.ReducesTo [1] S8
  bcast_S_S8 : S_.BroadcastsInDim S8 (![] : Fin 0 → Fin S8.rank)
  bcast_S8x1_S8x16_0_1 : S8x1.BroadcastsInDim S8x16 (![0, 1] : Fin 2 → Fin S8x16.rank)
  transposes_S65536x16_S16x65536_1_0 : S65536x16.Transposes [1, 0] S16x65536
  shapeCasts_S8x65536_S8x16x4096 : S8x65536.ShapeCasts S8x16x4096
  transposes_S8x16x4096_S8x4096x16_0_2_1 : S8x16x4096.Transposes [0, 2, 1] S8x4096x16
  bcast_S_S8x2048x4096 : S_.BroadcastsInDim S8x2048x4096 (![] : Fin 0 → Fin S8x2048x4096.rank)
  dot_S8x256_S256x60_S8x60_1_0_0_1_n_n_wf : DotDims.WF S8x256 S256x60 S8x60 [1] [0] [0] [1] [] []
  dot_S8x60_S60x16_S8x16_1_0_0_1_n_n_wf : DotDims.WF S8x60 S60x16 S8x16 [1] [0] [0] [1] [] []
  dot_S8x16_S16x65536_S8x65536_1_0_0_1_n_n_wf : DotDims.WF S8x16 S16x65536 S8x65536 [1] [0] [0] [1] [] []
  dot_S8x2048x4096_S8x4096x16_S8x2048x16_2_1_1_2_0_0_wf : DotDims.WF S8x2048x4096 S8x4096x16 S8x2048x16 [2] [1] [1] [2] [0] [0]
  dot_S8x2048x16_S8x16x4096_S8x2048x4096_2_1_1_2_0_0_wf : DotDims.WF S8x2048x16 S8x16x4096 S8x2048x4096 [2] [1] [1] [2] [0] [0]

variable [Facts₀]

def dot_S8x256_S256x60_S8x60_1_0_0_1_n_n : DotDims S8x256 S256x60 S8x60 where
  lhsContracting := [1]
  rhsContracting := [0]
  lhsNonContracting := [0]
  rhsNonContracting := [1]
  lhsBatch := []
  rhsBatch := []
  wf := dot_S8x256_S256x60_S8x60_1_0_0_1_n_n_wf
def dot_S8x60_S60x16_S8x16_1_0_0_1_n_n : DotDims S8x60 S60x16 S8x16 where
  lhsContracting := [1]
  rhsContracting := [0]
  lhsNonContracting := [0]
  rhsNonContracting := [1]
  lhsBatch := []
  rhsBatch := []
  wf := dot_S8x60_S60x16_S8x16_1_0_0_1_n_n_wf
def dot_S8x16_S16x65536_S8x65536_1_0_0_1_n_n : DotDims S8x16 S16x65536 S8x65536 where
  lhsContracting := [1]
  rhsContracting := [0]
  lhsNonContracting := [0]
  rhsNonContracting := [1]
  lhsBatch := []
  rhsBatch := []
  wf := dot_S8x16_S16x65536_S8x65536_1_0_0_1_n_n_wf
def dot_S8x2048x4096_S8x4096x16_S8x2048x16_2_1_1_2_0_0 : DotDims S8x2048x4096 S8x4096x16 S8x2048x16 where
  lhsContracting := [2]
  rhsContracting := [1]
  lhsNonContracting := [1]
  rhsNonContracting := [2]
  lhsBatch := [0]
  rhsBatch := [0]
  wf := dot_S8x2048x4096_S8x4096x16_S8x2048x16_2_1_1_2_0_0_wf
def dot_S8x2048x16_S8x16x4096_S8x2048x4096_2_1_1_2_0_0 : DotDims S8x2048x16 S8x16x4096 S8x2048x4096 where
  lhsContracting := [2]
  rhsContracting := [1]
  lhsNonContracting := [1]
  rhsNonContracting := [2]
  lhsBatch := [0]
  rhsBatch := [0]
  wf := dot_S8x2048x16_S8x16x4096_S8x2048x4096_2_1_1_2_0_0_wf

class Facts : Prop extends Facts₀ where

variable [Facts]
-- ==== Proof.TermsK.lean ====
/-
  The routing prefix both programs share, as pure functions of the argument arrays, for any float values.

  For a batch row `b` of the controller's hidden state `h : [8,256]`:
    rowMean h      = (Σ_k h[b,k]) / 256                                   as a column [8,1]
    rowVar h       = (Σ_k (h[b,k] - mean_b)²) / (256 - 0)                 (jnp.var with ddof 0, guarded by `256 - 0 > 0`)
    layerNorm      = (h - mean) · rsqrt(var + ε) · γ + β                   [8,256]
    hidden         = max(layerNorm · W1ᵀ + b1, 0)                          [8,60]
    logits         = (hidden · W2ᵀ + b2) / 1                               [8,16]
    softmaxRows l  = exp(l - max_row l) / Σ_row exp(l - max_row l)         [8,16]
    gate           = softmaxRows logits
    adapters g W   = (g · Wᵀ) re-read as [8,16,4096]                       (the per-batch low-rank factors)
  The two programs apply these same functions to the same arguments; they differ only in the last two contractions
  and in where the factor 2 is applied.
-/
import proofs.«153385_j67353677136189_2_alg».proof.KernelIdeal

noncomputable section

namespace Cert.KernelIdeal.Terms

open Cert.KernelIdeal Idealize.ShloMosaic

variable {F : FTy → Type} [FloatOps F] [Facts₀]
open Facts₀

/-- The mean of each row, as a column. -/
def rowMean (h : FVec F S8x256 .f32) : FVec F S8x1 .f32 :=
  Host.divf (broadcastInDim S8x1 ![0] bcast_S8_S8x1_0 (Host.reduceAdd h (constant S_ .f32 0x00000000#32) reducesTo_S8x256_S8_d1 h_S_))
    (broadcastInDim S8x1 ![] bcast_S_S8x1 (constant S_ .f32 0x43800000#32))

/-- The variance of each row with zero degrees of freedom removed, as a column: the mean of the squared deviations over
    `256 - 0` entries, and the quiet NaN where that count is not positive. -/
def rowVar (h : FVec F S8x256 .f32) : FVec F S8x1 .f32 :=
  have n : FVec F S_ .f32 := subf (constant S_ .f32 0x43800000#32) (sitofp .f32 (constantI S_ 32 0#32))
  have d : FVec F S8x256 .f32 := subf h (broadcastInDim S8x256 ![0, 1] bcast_S8x1_S8x256_0_1 (rowMean h))
  select (broadcastInDim S8x1 ![] bcast_S_S8x1 (cmpf .ogt n (constant S_ .f32 0x00000000#32)))
    (Host.divf (broadcastInDim S8x1 ![0] bcast_S8_S8x1_0 (Host.reduceAdd (mulf d d) (constant S_ .f32 0x00000000#32) reducesTo_S8x256_S8_d1 h_S_))
      (broadcastInDim S8x1 ![] bcast_S_S8x1 n))
    (broadcastInDim S8x1 ![] bcast_S_S8x1 (id (constant S_ .f32 0x7FC00000#32)))

/-- Layer normalization of each row with scale `γ` and shift `β`. -/
def layerNorm (h : FVec F S8x256 .f32) (γ β : FVec F S256 .f32) : FVec F S8x256 .f32 :=
  addf (mulf (mulf (subf h (broadcastInDim S8x256 ![0, 1] bcast_S8x1_S8x256_0_1 (rowMean h)))
        (broadcastInDim S8x256 ![0, 1] bcast_S8x1_S8x256_0_1
          (Host.rsqrt (addf (rowVar h) (broadcastInDim S8x1 ![] bcast_S_S8x1 (constant S_ .f32 0x3727C5AC#32))))))
      (broadcastInDim S8x256 ![0, 1] bcast_S1x256_S8x256_0_1 (broadcastInDim S1x256 ![1] bcast_S256_S1x256_1 γ)))
    (broadcastInDim S8x256 ![0, 1] bcast_S1x256_S8x256_0_1 (broadcastInDim S1x256 ![1] bcast_S256_S1x256_1 β))

/-- The first linear layer and its rectifier. -/
def hidden (u : FVec F S8x256 .f32) (W1 : FVec F S60x256 .f32) (b1 : FVec F S60 .f32) : FVec F S8x60 .f32 :=
  maximumf (addf (Host.dotGeneral dot_S8x256_S256x60_S8x60_1_0_0_1_n_n none u (transpose S256x60 [1, 0] W1 transposes_S60x256_S256x60_1_0))
      (broadcastInDim S8x60 ![0, 1] bcast_S1x60_S8x60_0_1 (broadcastInDim S1x60 ![1] bcast_S60_S1x60_1 b1)))
    (broadcastInDim S8x60 ![] bcast_S_S8x60 (constant S_ .f32 0x00000000#32))

/-- The second linear layer, divided by the temperature 1. -/
def logits (v : FVec F S8x60 .f32) (W2 : FVec F S16x60 .f32) (b2 : FVec F S16 .f32) : FVec F S8x16 .f32 :=
  Host.divf (addf (Host.dotGeneral dot_S8x60_S60x16_S8x16_1_0_0_1_n_n none v (transpose S60x16 [1, 0] W2 transposes_S16x60_S60x16_1_0))
      (broadcastInDim S8x16 ![0, 1] bcast_S1x16_S8x16_0_1 (broadcastInDim S1x16 ![1] bcast_S16_S1x16_1 b2)))
    (broadcastInDim S8x16 ![] bcast_S_S8x16 (constant S_ .f32 0x3F800000#32))

/-- The softmax of each row, shifted by the row's maximum. -/
def softmaxRows (l : FVec F S8x16 .f32) : FVec F S8x16 .f32 :=
  have e : FVec F S8x16 .f32 := Host.exp (subf l (broadcastInDim S8x16 ![0, 1] bcast_S8x1_S8x16_0_1 (broadcastInDim S8x1 ![0] bcast_S8_S8x1_0
      (maximumf (broadcastInDim S8 ![] bcast_S_S8 (constant S_ .f32 0xFF800000#32))
        (Host.reduce FloatOps.maximumf l (constant S_ .f32 0xFF800000#32) reducesTo_S8x16_S8_d1 h_S_)))))
  Host.divf e (broadcastInDim S8x16 ![0, 1] bcast_S8x1_S8x16_0_1 (broadcastInDim S8x1 ![0] bcast_S8_S8x1_0
    (Host.reduceAdd e (constant S_ .f32 0x00000000#32) reducesTo_S8x16_S8_d1 h_S_)))

/-- The routing weights of each batch row. -/
def gate (h : FVec F S8x256 .f32) (γ β : FVec F S256 .f32) (W1 : FVec F S60x256 .f32) (b1 : FVec F S60 .f32)
    (W2 : FVec F S16x60 .f32) (b2 : FVec F S16 .f32) : FVec F S8x16 .f32 :=
  softmaxRows (logits (hidden (layerNorm h γ β) W1 b1) W2 b2)

/-- The per-batch low-rank factors generated from the routing weights: `g · Wᵀ`, its 65536 columns re-read as 16 × 4096. -/
def adapters (g : FVec F S8x16 .f32) (W : FVec F S65536x16 .f32) : FVec F S8x16x4096 .f32 :=
  shapeCast S8x16x4096 (Host.dotGeneral dot_S8x16_S16x65536_S8x65536_1_0_0_1_n_n none g
    (transpose S16x65536 [1, 0] W transposes_S65536x16_S16x65536_1_0)) shapeCasts_S8x65536_S8x16x4096

/-- The splat of the scaling factor (the word of 2) over the second factor's shape. -/
def two : FVec F S8x16x4096 .f32 := broadcastInDim S8x16x4096 ![] bcast_S_S8x16x4096 (constant S_ .f32 0x40000000#32)

end Cert.KernelIdeal.Terms

end
-- ==== Proof.TermsR.lean ====
/-
  The routing prefix both programs share, as pure functions of the argument arrays, for any float values.

  For a batch row `b` of the controller's hidden state `h : [8,256]`:
    rowMean h      = (Σ_k h[b,k]) / 256                                   as a column [8,1]
    rowVar h       = (Σ_k (h[b,k] - mean_b)²) / (256 - 0)                 (jnp.var with ddof 0, guarded by `256 - 0 > 0`)
    layerNorm      = (h - mean) · rsqrt(var + ε) · γ + β                   [8,256]
    hidden         = max(layerNorm · W1ᵀ + b1, 0)                          [8,60]
    logits         = (hidden · W2ᵀ + b2) / 1                               [8,16]
    softmaxRows l  = exp(l - max_row l) / Σ_row exp(l - max_row l)         [8,16]
    gate           = softmaxRows logits
    adapters g W   = (g · Wᵀ) re-read as [8,16,4096]                       (the per-batch low-rank factors)
  The two programs apply these same functions to the same arguments; they differ only in the last two contractions
  and in where the factor 2 is applied.
-/
import proofs.«153385_j67353677136189_2_alg».proof.ReferenceIdeal

noncomputable section

namespace Cert.ReferenceIdeal.Terms

open Cert.ReferenceIdeal Idealize.ShloMosaic

variable {F : FTy → Type} [FloatOps F] [Facts₀]
open Facts₀

/-- The mean of each row, as a column. -/
def rowMean (h : FVec F S8x256 .f32) : FVec F S8x1 .f32 :=
  Host.divf (broadcastInDim S8x1 ![0] bcast_S8_S8x1_0 (Host.reduceAdd h (constant S_ .f32 0x00000000#32) reducesTo_S8x256_S8_d1 h_S_))
    (broadcastInDim S8x1 ![] bcast_S_S8x1 (constant S_ .f32 0x43800000#32))

/-- The variance of each row with zero degrees of freedom removed, as a column: the mean of the squared deviations over
    `256 - 0` entries, and the quiet NaN where that count is not positive. -/
def rowVar (h : FVec F S8x256 .f32) : FVec F S8x1 .f32 :=
  have n : FVec F S_ .f32 := subf (constant S_ .f32 0x43800000#32) (sitofp .f32 (constantI S_ 32 0#32))
  have d : FVec F S8x256 .f32 := subf h (broadcastInDim S8x256 ![0, 1] bcast_S8x1_S8x256_0_1 (rowMean h))
  select (broadcastInDim S8x1 ![] bcast_S_S8x1 (cmpf .ogt n (constant S_ .f32 0x00000000#32)))
    (Host.divf (broadcastInDim S8x1 ![0] bcast_S8_S8x1_0 (Host.reduceAdd (mulf d d) (constant S_ .f32 0x00000000#32) reducesTo_S8x256_S8_d1 h_S_))
      (broadcastInDim S8x1 ![] bcast_S_S8x1 n))
    (broadcastInDim S8x1 ![] bcast_S_S8x1 (id (constant S_ .f32 0x7FC00000#32)))

/-- Layer normalization of each row with scale `γ` and shift `β`. -/
def layerNorm (h : FVec F S8x256 .f32) (γ β : FVec F S256 .f32) : FVec F S8x256 .f32 :=
  addf (mulf (mulf (subf h (broadcastInDim S8x256 ![0, 1] bcast_S8x1_S8x256_0_1 (rowMean h)))
        (broadcastInDim S8x256 ![0, 1] bcast_S8x1_S8x256_0_1
          (Host.rsqrt (addf (rowVar h) (broadcastInDim S8x1 ![] bcast_S_S8x1 (constant S_ .f32 0x3727C5AC#32))))))
      (broadcastInDim S8x256 ![0, 1] bcast_S1x256_S8x256_0_1 (broadcastInDim S1x256 ![1] bcast_S256_S1x256_1 γ)))
    (broadcastInDim S8x256 ![0, 1] bcast_S1x256_S8x256_0_1 (broadcastInDim S1x256 ![1] bcast_S256_S1x256_1 β))

/-- The first linear layer and its rectifier. -/
def hidden (u : FVec F S8x256 .f32) (W1 : FVec F S60x256 .f32) (b1 : FVec F S60 .f32) : FVec F S8x60 .f32 :=
  maximumf (addf (Host.dotGeneral dot_S8x256_S256x60_S8x60_1_0_0_1_n_n none u (transpose S256x60 [1, 0] W1 transposes_S60x256_S256x60_1_0))
      (broadcastInDim S8x60 ![0, 1] bcast_S1x60_S8x60_0_1 (broadcastInDim S1x60 ![1] bcast_S60_S1x60_1 b1)))
    (broadcastInDim S8x60 ![] bcast_S_S8x60 (constant S_ .f32 0x00000000#32))

/-- The second linear layer, divided by the temperature 1. -/
def logits (v : FVec F S8x60 .f32) (W2 : FVec F S16x60 .f32) (b2 : FVec F S16 .f32) : FVec F S8x16 .f32 :=
  Host.divf (addf (Host.dotGeneral dot_S8x60_S60x16_S8x16_1_0_0_1_n_n none v (transpose S60x16 [1, 0] W2 transposes_S16x60_S60x16_1_0))
      (broadcastInDim S8x16 ![0, 1] bcast_S1x16_S8x16_0_1 (broadcastInDim S1x16 ![1] bcast_S16_S1x16_1 b2)))
    (broadcastInDim S8x16 ![] bcast_S_S8x16 (constant S_ .f32 0x3F800000#32))

/-- The softmax of each row, shifted by the row's maximum. -/
def softmaxRows (l : FVec F S8x16 .f32) : FVec F S8x16 .f32 :=
  have e : FVec F S8x16 .f32 := Host.exp (subf l (broadcastInDim S8x16 ![0, 1] bcast_S8x1_S8x16_0_1 (broadcastInDim S8x1 ![0] bcast_S8_S8x1_0
      (maximumf (broadcastInDim S8 ![] bcast_S_S8 (constant S_ .f32 0xFF800000#32))
        (Host.reduce FloatOps.maximumf l (constant S_ .f32 0xFF800000#32) reducesTo_S8x16_S8_d1 h_S_)))))
  Host.divf e (broadcastInDim S8x16 ![0, 1] bcast_S8x1_S8x16_0_1 (broadcastInDim S8x1 ![0] bcast_S8_S8x1_0
    (Host.reduceAdd e (constant S_ .f32 0x00000000#32) reducesTo_S8x16_S8_d1 h_S_)))

/-- The routing weights of each batch row. -/
def gate (h : FVec F S8x256 .f32) (γ β : FVec F S256 .f32) (W1 : FVec F S60x256 .f32) (b1 : FVec F S60 .f32)
    (W2 : FVec F S16x60 .f32) (b2 : FVec F S16 .f32) : FVec F S8x16 .f32 :=
  softmaxRows (logits (hidden (layerNorm h γ β) W1 b1) W2 b2)

/-- The per-batch low-rank factors generated from the routing weights: `g · Wᵀ`, its 65536 columns re-read as 16 × 4096. -/
def adapters (g : FVec F S8x16 .f32) (W : FVec F S65536x16 .f32) : FVec F S8x16x4096 .f32 :=
  shapeCast S8x16x4096 (Host.dotGeneral dot_S8x16_S16x65536_S8x65536_1_0_0_1_n_n none g
    (transpose S16x65536 [1, 0] W transposes_S65536x16_S16x65536_1_0)) shapeCasts_S8x65536_S8x16x4096

/-- The reference's last steps: `x` contracted with the first factor transposed, that with the second factor, then
    every entry times the splat of the scaling factor (the word of 2). -/
def refOut (x : FVec F S8x2048x4096 .f32) (A B : FVec F S8x16x4096 .f32) : FVec F S8x2048x4096 .f32 :=
  mulf (Host.dotGeneral dot_S8x2048x16_S8x16x4096_S8x2048x4096_2_1_1_2_0_0 none
      (Host.dotGeneral dot_S8x2048x4096_S8x4096x16_S8x2048x16_2_1_1_2_0_0 none x
        (transpose S8x4096x16 [0, 2, 1] A transposes_S8x16x4096_S8x4096x16_0_2_1)) B)
    (broadcastInDim S8x2048x4096 ![] bcast_S_S8x2048x4096 (constant S_ .f32 0x40000000#32))

end Cert.ReferenceIdeal.Terms

end
-- ==== Proof.GateEq.lean ====
/-
  The routing prefix is one function: written over the kernel program's shapes and layout witnesses or over the
  reference's, `gate` and `adapters` are the same operations on the same literal shapes, so the two spellings are
  equal term by term (the witnesses are propositions, the contraction records the same lists of axes).
-/
import proofs.«153385_j67353677136189_2_alg».proof.Proof.TermsK
import proofs.«153385_j67353677136189_2_alg».proof.Proof.TermsR

noncomputable section

namespace Cert.Bridge

open Idealize.ShloMosaic

variable {F : FTy → Type} [FloatOps F] [Cert.KernelIdeal.Facts₀] [Cert.ReferenceIdeal.Facts₀]

theorem gate_eq (h : FVec F Cert.KernelIdeal.S8x256 .f32) (γ β : FVec F Cert.KernelIdeal.S256 .f32)
    (W1 : FVec F Cert.KernelIdeal.S60x256 .f32) (b1 : FVec F Cert.KernelIdeal.S60 .f32)
    (W2 : FVec F Cert.KernelIdeal.S16x60 .f32) (b2 : FVec F Cert.KernelIdeal.S16 .f32) :
    Cert.ReferenceIdeal.Terms.gate h γ β W1 b1 W2 b2 = Cert.KernelIdeal.Terms.gate h γ β W1 b1 W2 b2 := rfl

theorem adapters_eq (g : FVec F Cert.KernelIdeal.S8x16 .f32) (W : FVec F Cert.KernelIdeal.S65536x16 .f32) :
    Cert.ReferenceIdeal.Terms.adapters g W = Cert.KernelIdeal.Terms.adapters g W := rfl

end Cert.Bridge

end
-- ==== Proof.Spec.lean ====
/-
  The result both programs compute, as one function of three arrays, at the ideal values (extended reals).

  For `x : [8,2048,4096]` and two families of low-rank factors `A, B : [8,16,4096]` (batch, rank, feature):
      lowRank x A B [b,s,o] = Σ_{r<16} (Σ_{i<4096} x[b,s,i] · A[b,r,i]) · B[b,r,o].
  The kernel computes `lowRank x A (B·2)`, one block of 256 rows of one batch per grid point; the reference computes
  `(lowRank x A B)·2`. The two agree because a nonnegative real factor moves across a finite sum of extended reals
  (`sum_mul_two`), with no condition on the summands: multiplication by a nonnegative real distributes over every
  extended-real sum, the undefined-looking `⊤ + ⊥ = ⊥` included, since both sides then read `⊥`.
-/
import Idealize.ShloMosaic.PureOps.Ideal
import Idealize.ShloMosaic.Lib.ValueIdx

noncomputable section

open scoped BigOperators

namespace Cert.Spec

open Idealize.ShloMosaic Idealize.ShloMosaic.ValueIdx

/-- The shape of `x` and of the result. -/
abbrev SX : Shape := ⟨3, ![8, 2048, 4096]⟩
/-- The shape of each family of low-rank factors. -/
abbrev SW : Shape := ⟨3, ![8, 16, 4096]⟩

/-- The low-rank product at batch `b`, row `s`, output feature `o`. -/
def lowRankAt (x : FVec Ideal SX .f32) (A B : FVec Ideal SW .f32) (b : Fin 8) (s : Fin 2048) (o : Fin 4096) : EReal :=
  ∑ r : Fin 16, (∑ i : Fin 4096, x (ix3 b s i) * A (ix3 b r i)) * B (ix3 b r o)

/-- The low-rank product as an array. -/
def lowRank (x : FVec Ideal SX .f32) (A B : FVec Ideal SW .f32) : FVec Ideal SX .f32 :=
  fun j => lowRankAt x A B (j 0) (j 1) (j 2)

theorem lowRank_ix3 (x : FVec Ideal SX .f32) (A B : FVec Ideal SW .f32) (b : Fin 8) (s : Fin 2048) (o : Fin 4096) :
    lowRank x A B (ix3 b s o) = lowRankAt x A B b s o := rfl

/-- A nonnegative real factor distributes over a sum of two extended reals, whatever they are. -/
theorem add_mul_coe_of_nonneg {c : ℝ} (hc : 0 ≤ c) (a b : EReal) : (a + b) * (c : EReal) = a * c + b * c :=
  EReal.right_distrib_of_nonneg_of_ne_top (EReal.coe_nonneg.mpr hc) (EReal.coe_ne_top c) a b

/-- So it moves across a finite sum. -/
theorem sum_mul_coe_of_nonneg {ι : Type*} (s : Finset ι) (f : ι → EReal) {c : ℝ} (hc : 0 ≤ c) :
    (∑ r ∈ s, f r) * (c : EReal) = ∑ r ∈ s, f r * c := by
  classical
  induction s using Finset.induction_on with
  | empty => simp
  | insert a s ha ih => rw [Finset.sum_insert ha, Finset.sum_insert ha, add_mul_coe_of_nonneg hc, ih]

/-- The factor applied to the second family of factors is the factor applied to the result. -/
theorem lowRankAt_scale (x : FVec Ideal SX .f32) (A B : FVec Ideal SW .f32) {c : ℝ} (hc : 0 ≤ c)
    (b : Fin 8) (s : Fin 2048) (o : Fin 4096) :
    lowRankAt x A (fun j => B j * (c : EReal)) b s o = lowRankAt x A B b s o * (c : EReal) := by
  unfold lowRankAt
  rw [sum_mul_coe_of_nonneg _ _ hc]
  exact Finset.sum_congr rfl fun r _ => (mul_assoc _ _ _).symm

end Cert.Spec

end
-- ==== Proof.Algebra.lean ====
/-
  The reference's last three operations read at an entry, and the law that joins the two programs.

  With `A, B : [8,16,4096]` the two families of low-rank factors, the reference ends in
      out[b,s,o] = (Σ_{r<16} (Σ_{i<4096} x[b,s,i] · Aᵀ[b,i,r]) · B[b,r,o]) · 2,      Aᵀ[b,i,r] = A[b,r,i],
  two batched contractions over one axis each (a contraction's element is the plain sum of the operands' products at
  the ideal values) followed by the product with the splat of the word of 2, which denotes the real number 2.
  The kernel multiplies `B` by that splat first. The two are equal entry by entry because the nonnegative real 2 moves
  across the finite sum over `r` (`Cert.Spec.lowRankAt_scale`) — true for all extended-real summands, so no finiteness
  of the inputs is used.
-/
import proofs.«153385_j67353677136189_2_alg».proof.Proof.Gen.KernelIdeal
import proofs.«153385_j67353677136189_2_alg».proof.Proof.Gen.ReferenceIdeal
import proofs.«153385_j67353677136189_2_alg».proof.Proof.TermsK
import proofs.«153385_j67353677136189_2_alg».proof.Proof.TermsR
import proofs.«153385_j67353677136189_2_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefValue

open Cert.ReferenceIdeal Idealize.ShloMosaic Idealize.ShloMosaic.ValueIdx

open Facts₀ Cert.ReferenceIdeal.Gen

/-- The word of `2.0` denotes the real number 2. -/
theorem ofBits_two : Ideal.ofBits .f32 0x40000000#32 = ((2 : ℝ) : EReal) := by
  simp [Ideal.ofBits, Ideal.ieee, -EReal.coe_mul]; norm_num

/-! ## Which entry of each operand a contraction reads

For `x · Aᵀ` (batch axis 0, the rows of `x` and the rank axis free, the feature axis contracted) and for the product of
that with `B` (batch axis 0, rows and output features free, the rank axis contracted): per operand axis, the
coordinate read at result entry `i` and contraction position `q`. -/

theorem lhs1_0 (i : S8x2048x16.Idx) (q : dot_S8x2048x4096_S8x4096x16_S8x2048x16_2_1_1_2_0_0.contr.Idx) : (dot_S8x2048x4096_S8x4096x16_S8x2048x16_2_1_1_2_0_0.lhsIdx i q 0).val = (i 0).val := by
  unfold DotDims.lhsIdx
  rw [dif_pos (show (0 : Fin S8x2048x4096.rank) ∈ dot_S8x2048x4096_S8x4096x16_S8x2048x16_2_1_1_2_0_0.lhsBatch by decide)]
  rfl
theorem lhs1_1 (i : S8x2048x16.Idx) (q : dot_S8x2048x4096_S8x4096x16_S8x2048x16_2_1_1_2_0_0.contr.Idx) : (dot_S8x2048x4096_S8x4096x16_S8x2048x16_2_1_1_2_0_0.lhsIdx i q 1).val = (i 1).val := by
  unfold DotDims.lhsIdx
  rw [dif_neg (show ¬(1 : Fin S8x2048x4096.rank) ∈ dot_S8x2048x4096_S8x4096x16_S8x2048x16_2_1_1_2_0_0.lhsBatch by decide), dif_pos (show (1 : Fin S8x2048x4096.rank) ∈ dot_S8x2048x4096_S8x4096x16_S8x2048x16_2_1_1_2_0_0.lhsNonContracting by decide)]
  rfl
theorem lhs1_2 (i : S8x2048x16.Idx) (q : dot_S8x2048x4096_S8x4096x16_S8x2048x16_2_1_1_2_0_0.contr.Idx) : (dot_S8x2048x4096_S8x4096x16_S8x2048x16_2_1_1_2_0_0.lhsIdx i q 2).val = (q ⟨0, by decide⟩).val :=
  dot_S8x2048x4096_S8x4096x16_S8x2048x16_2_1_1_2_0_0.lhsIdx_val_of_single rfl i q
theorem rhs1_0 (i : S8x2048x16.Idx) (q : dot_S8x2048x4096_S8x4096x16_S8x2048x16_2_1_1_2_0_0.contr.Idx) : (dot_S8x2048x4096_S8x4096x16_S8x2048x16_2_1_1_2_0_0.rhsIdx i q 0).val = (i 0).val := by
  unfold DotDims.rhsIdx
  rw [dif_pos (show (0 : Fin S8x4096x16.rank) ∈ dot_S8x2048x4096_S8x4096x16_S8x2048x16_2_1_1_2_0_0.rhsBatch by decide)]
  rfl
theorem rhs1_1 (i : S8x2048x16.Idx) (q : dot_S8x2048x4096_S8x4096x16_S8x2048x16_2_1_1_2_0_0.contr.Idx) : (dot_S8x2048x4096_S8x4096x16_S8x2048x16_2_1_1_2_0_0.rhsIdx i q 1).val = (q ⟨0, by decide⟩).val :=
  dot_S8x2048x4096_S8x4096x16_S8x2048x16_2_1_1_2_0_0.rhsIdx_val_of_single rfl i q
theorem rhs1_2 (i : S8x2048x16.Idx) (q : dot_S8x2048x4096_S8x4096x16_S8x2048x16_2_1_1_2_0_0.contr.Idx) : (dot_S8x2048x4096_S8x4096x16_S8x2048x16_2_1_1_2_0_0.rhsIdx i q 2).val = (i 2).val := by
  unfold DotDims.rhsIdx
  rw [dif_neg (show ¬(2 : Fin S8x4096x16.rank) ∈ dot_S8x2048x4096_S8x4096x16_S8x2048x16_2_1_1_2_0_0.rhsBatch by decide), dif_pos (show (2 : Fin S8x4096x16.rank) ∈ dot_S8x2048x4096_S8x4096x16_S8x2048x16_2_1_1_2_0_0.rhsNonContracting by decide)]
  rfl

theorem lhs2_0 (i : S8x2048x4096.Idx) (q : dot_S8x2048x16_S8x16x4096_S8x2048x4096_2_1_1_2_0_0.contr.Idx) : (dot_S8x2048x16_S8x16x4096_S8x2048x4096_2_1_1_2_0_0.lhsIdx i q 0).val = (i 0).val := by
  unfold DotDims.lhsIdx
  rw [dif_pos (show (0 : Fin S8x2048x16.rank) ∈ dot_S8x2048x16_S8x16x4096_S8x2048x4096_2_1_1_2_0_0.lhsBatch by decide)]
  rfl
theorem lhs2_1 (i : S8x2048x4096.Idx) (q : dot_S8x2048x16_S8x16x4096_S8x2048x4096_2_1_1_2_0_0.contr.Idx) : (dot_S8x2048x16_S8x16x4096_S8x2048x4096_2_1_1_2_0_0.lhsIdx i q 1).val = (i 1).val := by
  unfold DotDims.lhsIdx
  rw [dif_neg (show ¬(1 : Fin S8x2048x16.rank) ∈ dot_S8x2048x16_S8x16x4096_S8x2048x4096_2_1_1_2_0_0.lhsBatch by decide), dif_pos (show (1 : Fin S8x2048x16.rank) ∈ dot_S8x2048x16_S8x16x4096_S8x2048x4096_2_1_1_2_0_0.lhsNonContracting by decide)]
  rfl
theorem lhs2_2 (i : S8x2048x4096.Idx) (q : dot_S8x2048x16_S8x16x4096_S8x2048x4096_2_1_1_2_0_0.contr.Idx) : (dot_S8x2048x16_S8x16x4096_S8x2048x4096_2_1_1_2_0_0.lhsIdx i q 2).val = (q ⟨0, by decide⟩).val :=
  dot_S8x2048x16_S8x16x4096_S8x2048x4096_2_1_1_2_0_0.lhsIdx_val_of_single rfl i q
theorem rhs2_0 (i : S8x2048x4096.Idx) (q : dot_S8x2048x16_S8x16x4096_S8x2048x4096_2_1_1_2_0_0.contr.Idx) : (dot_S8x2048x16_S8x16x4096_S8x2048x4096_2_1_1_2_0_0.rhsIdx i q 0).val = (i 0).val := by
  unfold DotDims.rhsIdx
  rw [dif_pos (show (0 : Fin S8x16x4096.rank) ∈ dot_S8x2048x16_S8x16x4096_S8x2048x4096_2_1_1_2_0_0.rhsBatch by decide)]
  rfl
theorem rhs2_1 (i : S8x2048x4096.Idx) (q : dot_S8x2048x16_S8x16x4096_S8x2048x4096_2_1_1_2_0_0.contr.Idx) : (dot_S8x2048x16_S8x16x4096_S8x2048x4096_2_1_1_2_0_0.rhsIdx i q 1).val = (q ⟨0, by decide⟩).val :=
  dot_S8x2048x16_S8x16x4096_S8x2048x4096_2_1_1_2_0_0.rhsIdx_val_of_single rfl i q
theorem rhs2_2 (i : S8x2048x4096.Idx) (q : dot_S8x2048x16_S8x16x4096_S8x2048x4096_2_1_1_2_0_0.contr.Idx) : (dot_S8x2048x16_S8x16x4096_S8x2048x4096_2_1_1_2_0_0.rhsIdx i q 2).val = (i 2).val := by
  unfold DotDims.rhsIdx
  rw [dif_neg (show ¬(2 : Fin S8x16x4096.rank) ∈ dot_S8x2048x16_S8x16x4096_S8x2048x4096_2_1_1_2_0_0.rhsBatch by decide), dif_pos (show (2 : Fin S8x16x4096.rank) ∈ dot_S8x2048x16_S8x16x4096_S8x2048x4096_2_1_1_2_0_0.rhsNonContracting by decide)]
  rfl

/-- The splat of the scaling factor reads the word of 2 everywhere. -/
theorem two_apply (j : Cert.KernelIdeal.S8x16x4096.Idx) :
    (Cert.KernelIdeal.Terms.two (F := Ideal)) j = Ideal.ofBits .f32 0x40000000#32 := by
  unfold Cert.KernelIdeal.Terms.two
  rw [broadcastInDim_scalar_apply, constant_apply]

/-- The reference's result at batch `b`, row `s`, output feature `o`: the low-rank product there, times 2. -/
theorem refOut_apply (x : FVec Ideal S8x2048x4096 .f32) (A B : FVec Ideal S8x16x4096 .f32)
    (b : Fin 8) (s : Fin 2048) (o : Fin 4096) :
    Terms.refOut x A B (ix3 b s o) = Cert.Spec.lowRankAt x A B b s o * Ideal.ofBits .f32 0x40000000#32 := by
  unfold Terms.refOut
  rw [mulf_apply, broadcastInDim_scalar_apply, constant_apply]
  congr 1
  simp only [Host.dotGeneral]
  rw [Ideal.dotGeneral_apply, ← Equiv.sum_comp (contrEquiv1 dot_S8x2048x16_S8x16x4096_S8x2048x4096_2_1_1_2_0_0 16 rfl rfl).symm]
  unfold Cert.Spec.lowRankAt
  refine Finset.sum_congr rfl fun r _ => ?_
  have hr := contrEquiv1_symm_val dot_S8x2048x16_S8x16x4096_S8x2048x4096_2_1_1_2_0_0 16 rfl rfl r
  have el : dot_S8x2048x16_S8x16x4096_S8x2048x4096_2_1_1_2_0_0.lhsIdx (ix3 b s o) ((contrEquiv1 dot_S8x2048x16_S8x16x4096_S8x2048x4096_2_1_1_2_0_0 16 rfl rfl).symm r) = ix3 b s r :=
    funext fun a => Fin.ext (by
      match a with
      | ⟨0, _⟩ => exact lhs2_0 _ _
      | ⟨1, _⟩ => exact lhs2_1 _ _
      | ⟨2, _⟩ => exact (lhs2_2 _ _).trans hr)
  have er : dot_S8x2048x16_S8x16x4096_S8x2048x4096_2_1_1_2_0_0.rhsIdx (ix3 b s o) ((contrEquiv1 dot_S8x2048x16_S8x16x4096_S8x2048x4096_2_1_1_2_0_0 16 rfl rfl).symm r) = ix3 b r o :=
    funext fun a => Fin.ext (by
      match a with
      | ⟨0, _⟩ => exact rhs2_0 _ _
      | ⟨1, _⟩ => exact (rhs2_1 _ _).trans hr
      | ⟨2, _⟩ => exact rhs2_2 _ _)
  rw [el, er]
  congr 1
  rw [Ideal.dotGeneral_apply, ← Equiv.sum_comp (contrEquiv1 dot_S8x2048x4096_S8x4096x16_S8x2048x16_2_1_1_2_0_0 4096 rfl rfl).symm]
  refine Finset.sum_congr rfl fun i _ => ?_
  have hi := contrEquiv1_symm_val dot_S8x2048x4096_S8x4096x16_S8x2048x16_2_1_1_2_0_0 4096 rfl rfl i
  have el1 : dot_S8x2048x4096_S8x4096x16_S8x2048x16_2_1_1_2_0_0.lhsIdx (ix3 b s r) ((contrEquiv1 dot_S8x2048x4096_S8x4096x16_S8x2048x16_2_1_1_2_0_0 4096 rfl rfl).symm i) = ix3 b s i :=
    funext fun a => Fin.ext (by
      match a with
      | ⟨0, _⟩ => exact lhs1_0 _ _
      | ⟨1, _⟩ => exact lhs1_1 _ _
      | ⟨2, _⟩ => exact (lhs1_2 _ _).trans hi)
  have er1 : dot_S8x2048x4096_S8x4096x16_S8x2048x16_2_1_1_2_0_0.rhsIdx (ix3 b s r) ((contrEquiv1 dot_S8x2048x4096_S8x4096x16_S8x2048x16_2_1_1_2_0_0 4096 rfl rfl).symm i) = ix3 b i r :=
    funext fun a => Fin.ext (by
      match a with
      | ⟨0, _⟩ => exact rhs1_0 _ _
      | ⟨1, _⟩ => exact (rhs1_1 _ _).trans hi
      | ⟨2, _⟩ => exact rhs1_2 _ _)
  rw [el1, er1]
  congr 1
  exact transpose_apply _ A _ (ix3 b i r) (ix3 b r i) (fun ax => by
    match ax with
    | ⟨0, _⟩ => rfl
    | ⟨1, _⟩ => rfl
    | ⟨2, _⟩ => rfl)

/-- The kernel's function of `x`, `A` and `B · 2` is the reference's function of `x`, `A` and `B`. -/
theorem lowRank_scaled_eq_refOut (x : FVec Ideal S8x2048x4096 .f32) (A B : FVec Ideal S8x16x4096 .f32) :
    Cert.Spec.lowRank x A (mulf B Cert.KernelIdeal.Terms.two) = Terms.refOut x A B := by
  funext j
  obtain ⟨b, s, o, rfl⟩ : ∃ (b : Fin 8) (s : Fin 2048) (o : Fin 4096), j = ix3 b s o := ⟨j 0, j 1, j 2, eq_ix3 j⟩
  have hB : (mulf B Cert.KernelIdeal.Terms.two : FVec Ideal S8x16x4096 .f32) = fun j => B j * ((2 : ℝ) : EReal) := by
    funext j
    rw [mulf_apply, two_apply, ofBits_two]
  rw [refOut_apply, Cert.Spec.lowRank_ix3, ofBits_two, hB]
  exact Cert.Spec.lowRankAt_scale x A B (by norm_num) b s o

end Cert.ReferenceIdeal.RefValue

end
-- ==== Proof.KernelHost.lean ====
/-
  What the two arrays that windows 1 and 2 stage hold when the region is entered.

  Before the region the program computes, from the argument arrays alone, the routing weights
  `gate = softmaxRows (logits (hidden (layerNorm h γ β) W1 b1) W2 b2)` of each batch row, and from them the two
  families of per-batch low-rank factors: `adapters gate Wa` (the product `gate · Waᵀ`, its 65536 columns re-read
  as 16 × 4096), and `adapters gate Wb` multiplied entrywise by the splat of 2.  Every intermediate value has a
  buffer of its own, written once and after its operands; so the contents of a buffer at the end of the line of
  operations is the operation's function of its operands' final contents, and, unwinding from the last operation
  back to the argument buffers (which no operation writes), the composition of those functions over the launch
  contents.  The compositions are, stage by stage, the functions `rowMean`, `rowVar`, `layerNorm`, `hidden`,
  `logits`, `softmaxRows`, `adapters` and `two`, so the two sides agree by unfolding definitions.
-/
import proofs.«153385_j67353677136189_2_alg».proof.Proof.Gen.KernelIdeal.Frame
import proofs.«153385_j67353677136189_2_alg».proof.Proof.TermsK
import Idealize.ShloMosaic.Lib.StableHlo.Run
noncomputable section
namespace Cert.KernelIdeal.HostVals
open Cert.KernelIdeal Cert.KernelIdeal.Gen Idealize.ShloMosaic Idealize.ShloMosaic.TcCoe Idealize.SL.Sem Idealize.ShloMosaic.StableHlo
variable {F : FTy → Type} [FloatOps F]
variable (m : (ℓ : Loc nD τ sig) → Buf (Elt F) ℓ)

/-- The first family of low-rank factors, as the region finds it. -/
theorem V_factorA (c : Dev nD) :
    (V m c main_v44 : S8x16x4096.Idx → Elt F .f32)
      = Terms.adapters (Terms.gate (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) := by
  -- the contents when the region is entered: the fold of the operations' results over the launch contents
  dsimp only [V]
  simp only [hostOps0, hostOps0_1, hostOps0_2, hostOps0_3, hostOps0_4, List.flatten_cons, List.flatten_nil, List.append_nil, List.cons_append, List.nil_append]
  -- each operation's result at its own buffer is its function of its operands' contents; at any other buffer,
  -- what was there: unwound down to the argument buffers
  after_results_simp
  -- the composition is the stages' composition, definition by definition
  rfl

/-- The second family, already multiplied by the scaling factor. -/
theorem V_factorB (c : Dev nD) :
    (V m c main_v49 : S8x16x4096.Idx → Elt F .f32)
      = mulf (Terms.adapters (Terms.gate (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg9))) Terms.two := by
  dsimp only [V]
  simp only [hostOps0, hostOps0_1, hostOps0_2, hostOps0_3, hostOps0_4, List.flatten_cons, List.flatten_nil, List.append_nil, List.cons_append, List.nil_append]
  -- the last operation is the entrywise product of the re-read contraction with the splat of 2; its operands
  -- unwind as before
  after_results_simp
  rfl
end Cert.KernelIdeal.HostVals
end
-- ==== Proof.KernelValue.lean ====
/-
  The kernel's value at the ideal values (a float is an extended real, every operation exact, the format changes the
  identity): after the region the output array holds the low-rank product `Cert.Spec.lowRank` of the three arrays the
  input windows stage,
      out[b, s, o] = Σ_{r<16} (Σ_{i<4096} x[b, s, i] · A[b, r, i]) · B[b, r, o].
  The grid point (b, u) computes the 256 rows 256u … 256u + 255 of batch b: first the 256 × 16 coefficients x · Aᵀ
  (both operands contracted over their 4096 features), then the coefficients times the 16 × 4096 second factors. The
  block of x and the output block sit at block index (b, u, 0), the two factor blocks at (b, 0, 0); the 64 output
  blocks tile the [8, 2048, 4096] array.
-/
import proofs.«153385_j67353677136189_2_alg».proof.Proof.Gen.KernelIdeal.Value
import proofs.«153385_j67353677136189_2_alg».proof.Proof.Spec
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.BlockValue
open Cert.KernelIdeal Cert.KernelIdeal.Gen Idealize.ShloMosaic Idealize.ShloMosaic.TcCoe Idealize.SL.Sem Idealize.ShloMosaic.ValueIdx
open Idealize.ShloMosaic.Pipeline (Dat)
open scoped BigOperators
variable (m : (ℓ : Loc nD τ sig) → Buf (Elt Ideal) ℓ) (ρ : Dev nD → PrngReg)

/-! ## One block -/

/-- The first product: a block of 256 rows of x against the 16 first factors, contracted over the 4096 features of
    both (x · Aᵀ): entry (p, r) is the inner product of row p of x with factor r. -/
theorem rows_times_factorsT (X : FVec Ideal S256x4096 .bf16) (A : FVec Ideal S16x4096 .bf16) (p : Fin 256) (r : Fin 16) :
    matmul dot_S256x4096_S16x4096_S256x16_1_1_0_0_n_n none X A (constant (F := Ideal) S256x16 .f32 0x00000000#32) (ix2 p r)
      = ∑ i : Fin 4096, X (ix2 p i) * A (ix2 r i) := by
  refine (Ideal.matmul_constant_zero_apply dot_S256x4096_S16x4096_S256x16_1_1_0_0_n_n none X A (ix2 p r)).trans ?_
  rw [← Equiv.sum_comp (contrEquiv1 dot_S256x4096_S16x4096_S256x16_1_1_0_0_n_n 4096 rfl rfl).symm]
  refine Finset.sum_congr rfl fun i _ => ?_
  have ci := contrEquiv1_symm_val dot_S256x4096_S16x4096_S256x16_1_1_0_0_n_n 4096 rfl rfl i
  have l : dot_S256x4096_S16x4096_S256x16_1_1_0_0_n_n.lhsIdx (ix2 p r)
      ((contrEquiv1 dot_S256x4096_S16x4096_S256x16_1_1_0_0_n_n 4096 rfl rfl).symm i) = ix2 p i := by
    funext ax; apply Fin.ext
    match ax with
    | ⟨0, _⟩ => simp [DotDims.lhsIdx, dot_S256x4096_S16x4096_S256x16_1_1_0_0_n_n]; rfl
    | ⟨1, _⟩ => simp [DotDims.lhsIdx, dot_S256x4096_S16x4096_S256x16_1_1_0_0_n_n]; exact ci
  have rr : dot_S256x4096_S16x4096_S256x16_1_1_0_0_n_n.rhsIdx (ix2 p r)
      ((contrEquiv1 dot_S256x4096_S16x4096_S256x16_1_1_0_0_n_n 4096 rfl rfl).symm i) = ix2 r i := by
    funext ax; apply Fin.ext
    match ax with
    | ⟨0, _⟩ => simp [DotDims.rhsIdx, dot_S256x4096_S16x4096_S256x16_1_1_0_0_n_n]; rfl
    | ⟨1, _⟩ => simp [DotDims.rhsIdx, dot_S256x4096_S16x4096_S256x16_1_1_0_0_n_n]; exact ci
  rw [l, rr]

/-- The second product: the 256 × 16 coefficients against the 16 second factors (C · B): entry (p, q) is the sum over the
    rank of coefficient (p, r) times factor r's feature q. -/
theorem coeffs_times_factors (C : FVec Ideal S256x16 .bf16) (B : FVec Ideal S16x4096 .bf16) (p : Fin 256) (q : Fin 4096) :
    matmul dot_S256x16_S16x4096_S256x4096_1_0_0_1_n_n none C B (constant (F := Ideal) S256x4096 .f32 0x00000000#32) (ix2 p q)
      = ∑ r : Fin 16, C (ix2 p r) * B (ix2 r q) := by
  refine (Ideal.matmul_constant_zero_apply dot_S256x16_S16x4096_S256x4096_1_0_0_1_n_n none C B (ix2 p q)).trans ?_
  rw [← Equiv.sum_comp (contrEquiv1 dot_S256x16_S16x4096_S256x4096_1_0_0_1_n_n 16 rfl rfl).symm]
  refine Finset.sum_congr rfl fun r _ => ?_
  have cr := contrEquiv1_symm_val dot_S256x16_S16x4096_S256x4096_1_0_0_1_n_n 16 rfl rfl r
  have l : dot_S256x16_S16x4096_S256x4096_1_0_0_1_n_n.lhsIdx (ix2 p q)
      ((contrEquiv1 dot_S256x16_S16x4096_S256x4096_1_0_0_1_n_n 16 rfl rfl).symm r) = ix2 p r := by
    funext ax; apply Fin.ext
    match ax with
    | ⟨0, _⟩ => simp [DotDims.lhsIdx, dot_S256x16_S16x4096_S256x4096_1_0_0_1_n_n]; rfl
    | ⟨1, _⟩ => simp [DotDims.lhsIdx, dot_S256x16_S16x4096_S256x4096_1_0_0_1_n_n]; exact cr
  have rr : dot_S256x16_S16x4096_S256x4096_1_0_0_1_n_n.rhsIdx (ix2 p q)
      ((contrEquiv1 dot_S256x16_S16x4096_S256x4096_1_0_0_1_n_n 16 rfl rfl).symm r) = ix2 r q := by
    funext ax; apply Fin.ext
    match ax with
    | ⟨0, _⟩ => simp [DotDims.rhsIdx, dot_S256x16_S16x4096_S256x4096_1_0_0_1_n_n]; exact cr
    | ⟨1, _⟩ => simp [DotDims.rhsIdx, dot_S256x16_S16x4096_S256x4096_1_0_0_1_n_n]; rfl
  rw [l, rr]

/-- One block: row p of 256, output feature q, from the point's blocks of x (x0), of the first factors (x1) and of the second factors (x2). -/
theorem payload_apply (x0 : Vec Ideal S1x256x4096 .f32) (x1 x2 : Vec Ideal S1x16x4096 .f32) (p : Fin 256) (q : Fin 4096) :
    k0_pay1 x0 x1 x2 (ix3 (0 : Fin 1) p q)
      = ∑ r : Fin 16, (∑ i : Fin 4096, x0 (ix3 (0 : Fin 1) p i) * x1 (ix3 (0 : Fin 1) r i)) * x2 (ix3 (0 : Fin 1) r q) := by
  unfold k0_pay1
  -- the result block [1,256,4096] read at (0, p, q) is the second product at (p, q)
  refine (shapeCast_ab_1ab_apply _ _ (0 : Fin 1) p q).trans ?_
  refine (coeffs_times_factors _ _ p q).trans ?_
  refine Finset.sum_congr rfl fun r _ => ?_
  -- the format changes are the identity at the ideal values; a block [1,16,4096] viewed [16,4096] reads (0, r, q) at (r, q)
  refine congrArg₂ (· * ·) ?_ ?_
  · refine (rows_times_factorsT _ _ p r).trans ?_
    refine Finset.sum_congr rfl fun i _ => ?_
    exact congrArg₂ (· * ·) (shapeCast_1ab_ab_apply x0 _ p i) (shapeCast_1ab_ab_apply x1 _ r i)
  · exact shapeCast_1ab_ab_apply x2 _ r q

/-! ## From the blocks to the array -/

theorem origin3 : (![0, 0, 0] : Fin 3 → Nat) = fun _ => 0 := funext fun a => by fin_cases a <;> rfl

/-- One entry of a block, against the arrays: if the block of x reads the array x at (batch, row, ·), and the two factor
    blocks read the two factor arrays at (batch, ·, ·), then entry y of the body's result is the low-rank product at the
    array index k with the same batch, that row and y's feature. The hypotheses speak of coordinates' values only. -/
theorem block_entry (x0 : Vec Ideal S1x256x4096 .f32) (x1 x2 : Vec Ideal S1x16x4096 .f32)
    (X : FVec Ideal Cert.Spec.SX .f32) (A B : FVec Ideal Cert.Spec.SW .f32)
    (y : S1x256x4096.Idx) (k : S8x2048x4096.Idx)
    (h0 : ∀ (y' : S1x256x4096.Idx) (k' : S8x2048x4096.Idx), (y' 1).val = (y 1).val → (k' 0).val = (k 0).val →
      (k' 1).val = (k 1).val → (k' 2).val = (y' 2).val → x0 y' = X k')
    (h1 : ∀ (z : S1x16x4096.Idx) (k' : S8x16x4096.Idx), (k' 0).val = (k 0).val → (k' 1).val = (z 1).val →
      (k' 2).val = (z 2).val → x1 z = A k')
    (h2 : ∀ (z : S1x16x4096.Idx) (k' : S8x16x4096.Idx), (k' 0).val = (k 0).val → (k' 1).val = (z 1).val →
      (k' 2).val = (z 2).val → x2 z = B k')
    (hk2 : (k 2).val = (y 2).val) :
    k0_pay1 x0 x1 x2 y = Cert.Spec.lowRank X A B k := by
  obtain ⟨u, p, q, rfl⟩ : ∃ (u : Fin 1) (p : Fin 256) (q : Fin 4096), y = ix3 u p q := ⟨y 0, y 1, y 2, eq_ix3 y⟩
  obtain ⟨b, s, o, rfl⟩ : ∃ (b : Fin 8) (s : Fin 2048) (o : Fin 4096), k = ix3 b s o := ⟨k 0, k 1, k 2, eq_ix3 k⟩
  obtain rfl : u = 0 := Subsingleton.elim _ _
  obtain rfl : o = q := Fin.ext hk2
  rw [payload_apply, Cert.Spec.lowRank_ix3]
  unfold Cert.Spec.lowRankAt
  refine Finset.sum_congr rfl fun r _ => ?_
  rw [h2 (ix3 (0 : Fin 1) r o) (ix3 b r o) rfl rfl rfl]
  refine congrArg (· * _) (Finset.sum_congr rfl fun i _ => ?_)
  rw [h0 (ix3 (0 : Fin 1) p i) (ix3 b s i) rfl rfl rfl rfl, h1 (ix3 (0 : Fin 1) r i) (ix3 b r i) rfl rfl rfl]

/-- The four windows' block index maps, decided over the 64 grid points: the block of x and the output block sit at the same
    (batch, row tile, 0); both factor blocks sit at (batch, 0, 0). -/
theorem index_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 3) = win0_3.index t (0 : Fin 3)
    ∧ win0_1.index t (1 : Fin 3) = 0
    ∧ win0_1.index t (2 : Fin 3) = 0
    ∧ win0_2.index t (0 : Fin 3) = win0_3.index t (0 : Fin 3)
    ∧ win0_2.index t (1 : Fin 3) = 0
    ∧ win0_2.index t (2 : Fin 3) = 0
    ∧ win0_3.index t (2 : Fin 3) = 0 :=
  (by decide +kernel : ∀ t : Fin grid0.N, _)

/-- Every (batch, row tile) is some point's output block. -/
theorem index_onto : ∀ (b : Fin 8) (u : Fin 8), ∃ t : Fin cfg0.N, win0_3.index t = ![b.val, u.val, 0] :=
  (by decide +kernel : ∀ (b : Fin 8) (u : Fin 8), ∃ t : Fin grid0.N, win0_3.index t = ![b.val, u.val, 0])

/-- The block of x at point t, entry y, is the array x at (the point's batch, 256 · the point's row tile + y's row, y's feature). -/
theorem xblock_apply (c : Dev nD) (t : Fin cfg0.N) (y : S1x256x4096.Idx) (k : S8x2048x4096.Idx)
    (hk0 : (k 0).val = win0_3.index t (0 : Fin 3)) (hk1 : (k 1).val = win0_3.index t (1 : Fin 3) * 256 + (y 1).val)
    (hk2 : (k 2).val = (y 2).val) :
    (iblk m c 0 t : Vec Ideal S1x256x4096 .f32) y = (V m c main_arg0 : S8x2048x4096.Idx → Elt Ideal .f32) k := by
  obtain ⟨e0, e1, e2, -⟩ := index_facts t
  have hy0 : (y 0).val < 1 := (y 0).isLt
  unfold iblk
  rw [View.read_apply]
  show V m c main_arg0 _ = V m c main_arg0 _
  refine congrArg (V m c main_arg0) ?_
  funext a
  apply Fin.ext
  match a with
  | ⟨0, _⟩ => show win0_0.index t (0 : Fin 3) * 1 + 1 * (y 0).val = (k 0).val; omega
  | ⟨1, _⟩ => show win0_0.index t (1 : Fin 3) * 256 + 1 * (y 1).val = (k 1).val; omega
  | ⟨2, _⟩ => show win0_0.index t (2 : Fin 3) * 4096 + 1 * (y 2).val = (k 2).val; omega

/-- The block of first factors at point t, entry z, is the first factor array at (the point's batch, z's rank index, z's feature). -/
theorem ablock_apply (c : Dev nD) (t : Fin cfg0.N) (z : S1x16x4096.Idx) (k : S8x16x4096.Idx)
    (hk0 : (k 0).val = win0_3.index t (0 : Fin 3)) (hk1 : (k 1).val = (z 1).val) (hk2 : (k 2).val = (z 2).val) :
    (iblk m c 1 t : Vec Ideal S1x16x4096 .f32) z = (V m c main_v44 : S8x16x4096.Idx → Elt Ideal .f32) k := by
  obtain ⟨-, -, -, e0, e1, e2, -⟩ := index_facts t
  have hz0 : (z 0).val < 1 := (z 0).isLt
  unfold iblk
  rw [View.read_apply]
  show V m c main_v44 _ = V m c main_v44 _
  refine congrArg (V m c main_v44) ?_
  funext a
  apply Fin.ext
  match a with
  | ⟨0, _⟩ => show win0_1.index t (0 : Fin 3) * 1 + 1 * (z 0).val = (k 0).val; omega
  | ⟨1, _⟩ => show win0_1.index t (1 : Fin 3) * 16 + 1 * (z 1).val = (k 1).val; omega
  | ⟨2, _⟩ => show win0_1.index t (2 : Fin 3) * 4096 + 1 * (z 2).val = (k 2).val; omega

/-- The block of second factors at point t, entry z, is the second factor array at (the point's batch, z's rank index, z's feature). -/
theorem bblock_apply (c : Dev nD) (t : Fin cfg0.N) (z : S1x16x4096.Idx) (k : S8x16x4096.Idx)
    (hk0 : (k 0).val = win0_3.index t (0 : Fin 3)) (hk1 : (k 1).val = (z 1).val) (hk2 : (k 2).val = (z 2).val) :
    (iblk m c 2 t : Vec Ideal S1x16x4096 .f32) z = (V m c main_v49 : S8x16x4096.Idx → Elt Ideal .f32) k := by
  obtain ⟨-, -, -, -, -, -, e0, e1, e2, -⟩ := index_facts t
  have hz0 : (z 0).val < 1 := (z 0).isLt
  unfold iblk
  rw [View.read_apply]
  show V m c main_v49 _ = V m c main_v49 _
  refine congrArg (V m c main_v49) ?_
  funext a
  apply Fin.ext
  match a with
  | ⟨0, _⟩ => show win0_2.index t (0 : Fin 3) * 1 + 1 * (z 0).val = (k 0).val; omega
  | ⟨1, _⟩ => show win0_2.index t (1 : Fin 3) * 16 + 1 * (z 1).val = (k 1).val; omega
  | ⟨2, _⟩ => show win0_2.index t (2 : Fin 3) * 4096 + 1 * (z 2).val = (k 2).val; omega

/-- What point t writes back is block t of the low-rank product of the three arrays as the region finds them. -/
theorem flushed_eq (c : Dev nD) (t : Fin cfg0.N) :
    (dats m 0 c).flushed 3 t = ((cfg0.win 3).blk t).view.read (Elt Ideal)
      (Cert.Spec.lowRank (V m c main_arg0) (V m c main_v44) (V m c main_v49)) := by
  rw [Value.flushed3]
  unfold out0_3
  rw [View.canon_unit_zero origin3]
  simp only [View.ld_unit_zero (S := S1x256x4096) origin3, View.ld_unit_zero (S := S1x16x4096) origin3]
  funext j
  show k0_pay1 (iblk m c 0 t) (iblk m c 1 t) (iblk m c 2 t) j
    = Cert.Spec.lowRank (V m c main_arg0) (V m c main_v44) (V m c main_v49) (((cfg0.win 3).blk t).view.emb j)
  have hj0 : (j 0).val < 1 := (j 0).isLt
  have hK0 : ((((cfg0.win 3).blk t).view.emb j) 0).val = win0_3.index t (0 : Fin 3) * 1 + 1 * (j 0).val := rfl
  have hK1 : ((((cfg0.win 3).blk t).view.emb j) 1).val = win0_3.index t (1 : Fin 3) * 256 + 1 * (j 1).val := rfl
  have hK2 : ((((cfg0.win 3).blk t).view.emb j) 2).val = win0_3.index t (2 : Fin 3) * 4096 + 1 * (j 2).val := rfl
  obtain ⟨-, -, -, -, -, -, -, -, -, e32⟩ := index_facts t
  refine block_entry (iblk m c 0 t) (iblk m c 1 t) (iblk m c 2 t) _ _ _ j _
    (fun y' k' g1 g2 g3 g4 => xblock_apply m c t y' k' (by omega) (by omega) g4)
    (fun z k' g1 g2 g3 => ablock_apply m c t z k' (by omega) g2 g3)
    (fun z k' g1 g2 g3 => bblock_apply m c t z k' (by omega) g2 g3)
    (by omega)

/-- An index of the array is in point t's block iff each coordinate is in the block's range on its axis. -/
theorem mem_blk (t : Fin cfg0.N) (i : S8x2048x4096.Idx) :
    i ∈ ((cfg0.win 3).blk t).view.set ↔ ∀ a : Fin 3, win0_3.index t a * S1x256x4096.size a ≤ (i a).val
      ∧ (i a).val < win0_3.index t a * S1x256x4096.size a + S1x256x4096.size a := by
  show i ∈ ((View.whole main_v50).slice (win0_3.rect t)).set ↔ _
  rw [View.set_slice_whole, Rect.mem_set_unit]
  exact Iff.rfl

/-- Row s of batch b is in the block of the point (b, s / 256): the 64 blocks cover the array. -/
theorem cover (i : S8x2048x4096.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 4096 := (i 2).isLt
  obtain ⟨t, ht⟩ := index_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 4096 ≤ (i 2).val ∧ (i 2).val < win0_3.index t (2 : Fin 3) * 4096 + 4096; omega

/-- The whole output array after the region. -/
theorem final (c : Dev nD) :
    (dats m 0 c).arrAt 3 cfg0.N = Cert.Spec.lowRank (V m c main_arg0) (V m c main_v44) (V m c main_v49) :=
  (dats m 0 c).arrAt_eq_of_cover 3 (Cert.Spec.lowRank (V m c main_arg0) (V m c main_v44) (V m c main_v49))
    (fun t _ => flushed_eq m c t) cover

theorem run : θ_run defs (onTc (τ := τ) (main (F := Ideal))) ⟨m, fun _ => 0, ρ⟩ fun r => ∀ c : Dev nD,
      r.2.mem ((c : Thread nD τ).loc main_v50) = Cert.Spec.lowRank (V m c main_arg0) (V m c main_v44) (V m c main_v49)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.BlockValue
end
-- ==== Proof.RefRun.lean ====
/-
  The reference program's run, read back.

  @main of the reference is a straight line of array operations: its own statements, with the bodies of the three
  functions it calls (the variance of each row, which itself calls the guarded select, and the rectifier) written
  at their call sites over the buffers of each call.  Every value has a buffer of its own, written once.  So after
  the line the result buffer holds the composition of the operations' functions applied to the argument buffers'
  launch contents, and the argument buffers are unchanged.  The composition is the term `Terms.refOut` over the
  routing weights `Terms.gate` and the two factor arrays `Terms.adapters`.
-/
import proofs.«153385_j67353677136189_2_alg».proof.Proof.Gen.ReferenceIdeal
import proofs.«153385_j67353677136189_2_alg».proof.Proof.TermsR
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, a called function's operations at its call over that call's buffers: the row mean
    (7), the row variance with its guarded select (23), the normalization and the first linear layer (19), the
    rectifier (3), the second linear layer and the softmax (22), the two factor arrays, the two contractions and the
    scaling by the splat of 2 (12). -/
abbrev ops : List (HloOp τ sig (Elt F)) :=
  [ StableHlo.nullary main_cst (constant S_ .f32 0x00000000#32),
    StableHlo.binary main_arg1 main_cst main_v0 ((fun x v => Host.reduceAdd x v reducesTo_S8x256_S8_d1 h_S_) : (⟨S8x256, .f32⟩ : BufTy).Contents (Elt F) → (⟨S_, .f32⟩ : BufTy).Contents (Elt F) → (⟨S8, .f32⟩ : BufTy).Contents (Elt F)),
    StableHlo.unary main_v0 main_v1 (broadcastInDim S8x1 ![0] bcast_S8_S8x1_0 : (⟨S8, .f32⟩ : BufTy).Contents (Elt F) → (⟨S8x1, .f32⟩ : BufTy).Contents (Elt F)),
    StableHlo.nullary main_cst_0 (constant S_ .f32 0x43800000#32),
    StableHlo.unary main_cst_0 main_v2 (broadcastInDim S8x1 ![] bcast_S_S8x1 : (⟨S_, .f32⟩ : BufTy).Contents (Elt F) → (⟨S8x1, .f32⟩ : BufTy).Contents (Elt F)),
    StableHlo.binary main_v1 main_v2 main_v3 (Host.divf : (⟨S8x1, .f32⟩ : BufTy).Contents (Elt F) → (⟨S8x1, .f32⟩ : BufTy).Contents (Elt F) → (⟨S8x1, .f32⟩ : BufTy).Contents (Elt F)),
    StableHlo.nullary main_c (constantI S_ 32 0#32),
    StableHlo.TRef.nullary (.of main_call0_cst : StableHlo.TRef sig ⟨S_, .f32⟩) (constant S_ .f32 0x00000000#32),
    StableHlo.TRef.binary (.of main_arg1 : StableHlo.TRef sig ⟨S8x256, .f32⟩) (.of main_call0_cst : StableHlo.TRef sig ⟨S_, .f32⟩) (.of main_call0_v0 : StableHlo.TRef sig ⟨S8, .f32⟩) (fun x v => Host.reduceAdd x v reducesTo_S8x256_S8_d1 h_S_),
    StableHlo.TRef.unary (.of main_call0_v0 : StableHlo.TRef sig ⟨S8, .f32⟩) (.of main_call0_v1 : StableHlo.TRef sig ⟨S8x1, .f32⟩) (broadcastInDim S8x1 ![0] bcast_S8_S8x1_0),
    StableHlo.TRef.nullary (.of main_call0_cst_0 : StableHlo.TRef sig ⟨S_, .f32⟩) (constant S_ .f32 0x43800000#32),
    StableHlo.TRef.unary (.of main_call0_cst_0 : StableHlo.TRef sig ⟨S_, .f32⟩) (.of main_call0_v2 : StableHlo.TRef sig ⟨S8x1, .f32⟩) (broadcastInDim S8x1 ![] bcast_S_S8x1),
    StableHlo.TRef.binary (.of main_call0_v1 : StableHlo.TRef sig ⟨S8x1, .f32⟩) (.of main_call0_v2 : StableHlo.TRef sig ⟨S8x1, .f32⟩) (.of main_call0_v3 : StableHlo.TRef sig ⟨S8x1, .f32⟩) Host.divf,
    StableHlo.TRef.unary (.of main_call0_v3 : StableHlo.TRef sig ⟨S8x1, .f32⟩) (.of main_call0_v4 : StableHlo.TRef sig ⟨S8x256, .f32⟩) (broadcastInDim S8x256 ![0, 1] bcast_S8x1_S8x256_0_1),
    StableHlo.TRef.binary (.of main_arg1 : StableHlo.TRef sig ⟨S8x256, .f32⟩) (.of main_call0_v4 : StableHlo.TRef sig ⟨S8x256, .f32⟩) (.of main_call0_v5 : StableHlo.TRef sig ⟨S8x256, .f32⟩) subf,
    StableHlo.TRef.binary (.of main_call0_v5 : StableHlo.TRef sig ⟨S8x256, .f32⟩) (.of main_call0_v5 : StableHlo.TRef sig ⟨S8x256, .f32⟩) (.of main_call0_v6 : StableHlo.TRef sig ⟨S8x256, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x43800000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S8x256, .f32⟩) (.of main_call0_cst_2 : StableHlo.TRef sig ⟨S_, .f32⟩) (.of main_call0_v9 : StableHlo.TRef sig ⟨S8, .f32⟩) (fun x v => Host.reduceAdd x v reducesTo_S8x256_S8_d1 h_S_),
    StableHlo.TRef.unary (.of main_call0_v9 : StableHlo.TRef sig ⟨S8, .f32⟩) (.of main_call0_v10 : StableHlo.TRef sig ⟨S8x1, .f32⟩) (broadcastInDim S8x1 ![0] bcast_S8_S8x1_0),
    StableHlo.TRef.unary (.of main_call0_v8 : StableHlo.TRef sig ⟨S_, .f32⟩) (.of main_call0_v11 : StableHlo.TRef sig ⟨S8x1, .f32⟩) (broadcastInDim S8x1 ![] bcast_S_S8x1),
    StableHlo.TRef.binary (.of main_call0_v10 : StableHlo.TRef sig ⟨S8x1, .f32⟩) (.of main_call0_v11 : StableHlo.TRef sig ⟨S8x1, .f32⟩) (.of main_call0_v12 : StableHlo.TRef sig ⟨S8x1, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v13 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S8x1, .f32⟩) (broadcastInDim S8x1 ![] bcast_S_S8x1),
    StableHlo.TRef.ternary (.of main_call0_v13 : StableHlo.TRef sig ⟨S_, .i1⟩) (.of main_call0_v12 : StableHlo.TRef sig ⟨S8x1, .f32⟩) (.of main_call0_call0_v1 : StableHlo.TRef sig ⟨S8x1, .f32⟩) (.of main_v4 : StableHlo.TRef sig ⟨S8x1, .f32⟩) (fun p a b => select (broadcastInDim S8x1 ![] bcast_S_S8x1 p) a b),
    StableHlo.unary main_v3 main_v5 (broadcastInDim S8x256 ![0, 1] bcast_S8x1_S8x256_0_1 : (⟨S8x1, .f32⟩ : BufTy).Contents (Elt F) → (⟨S8x256, .f32⟩ : BufTy).Contents (Elt F)),
    StableHlo.binary main_arg1 main_v5 main_v6 (subf : (⟨S8x256, .f32⟩ : BufTy).Contents (Elt F) → (⟨S8x256, .f32⟩ : BufTy).Contents (Elt F) → (⟨S8x256, .f32⟩ : BufTy).Contents (Elt F)),
    StableHlo.nullary main_cst_1 (constant S_ .f32 0x3727C5AC#32),
    StableHlo.unary main_cst_1 main_v7 (broadcastInDim S8x1 ![] bcast_S_S8x1 : (⟨S_, .f32⟩ : BufTy).Contents (Elt F) → (⟨S8x1, .f32⟩ : BufTy).Contents (Elt F)),
    StableHlo.binary main_v4 main_v7 main_v8 (addf : (⟨S8x1, .f32⟩ : BufTy).Contents (Elt F) → (⟨S8x1, .f32⟩ : BufTy).Contents (Elt F) → (⟨S8x1, .f32⟩ : BufTy).Contents (Elt F)),
    StableHlo.unary main_v8 main_v9 (Host.rsqrt : (⟨S8x1, .f32⟩ : BufTy).Contents (Elt F) → (⟨S8x1, .f32⟩ : BufTy).Contents (Elt F)),
    StableHlo.unary main_v9 main_v10 (broadcastInDim S8x256 ![0, 1] bcast_S8x1_S8x256_0_1 : (⟨S8x1, .f32⟩ : BufTy).Contents (Elt F) → (⟨S8x256, .f32⟩ : BufTy).Contents (Elt F)),
    StableHlo.binary main_v6 main_v10 main_v11 (mulf : (⟨S8x256, .f32⟩ : BufTy).Contents (Elt F) → (⟨S8x256, .f32⟩ : BufTy).Contents (Elt F) → (⟨S8x256, .f32⟩ : BufTy).Contents (Elt F)),
    StableHlo.unary main_arg2 main_v12 (broadcastInDim S1x256 ![1] bcast_S256_S1x256_1 : (⟨S256, .f32⟩ : BufTy).Contents (Elt F) → (⟨S1x256, .f32⟩ : BufTy).Contents (Elt F)),
    StableHlo.unary main_v12 main_v13 (broadcastInDim S8x256 ![0, 1] bcast_S1x256_S8x256_0_1 : (⟨S1x256, .f32⟩ : BufTy).Contents (Elt F) → (⟨S8x256, .f32⟩ : BufTy).Contents (Elt F)),
    StableHlo.binary main_v11 main_v13 main_v14 (mulf : (⟨S8x256, .f32⟩ : BufTy).Contents (Elt F) → (⟨S8x256, .f32⟩ : BufTy).Contents (Elt F) → (⟨S8x256, .f32⟩ : BufTy).Contents (Elt F)),
    StableHlo.unary main_arg3 main_v15 (broadcastInDim S1x256 ![1] bcast_S256_S1x256_1 : (⟨S256, .f32⟩ : BufTy).Contents (Elt F) → (⟨S1x256, .f32⟩ : BufTy).Contents (Elt F)),
    StableHlo.unary main_v15 main_v16 (broadcastInDim S8x256 ![0, 1] bcast_S1x256_S8x256_0_1 : (⟨S1x256, .f32⟩ : BufTy).Contents (Elt F) → (⟨S8x256, .f32⟩ : BufTy).Contents (Elt F)),
    StableHlo.binary main_v14 main_v16 main_v17 (addf : (⟨S8x256, .f32⟩ : BufTy).Contents (Elt F) → (⟨S8x256, .f32⟩ : BufTy).Contents (Elt F) → (⟨S8x256, .f32⟩ : BufTy).Contents (Elt F)),
    StableHlo.unary main_arg4 main_v18 ((transpose S256x60 [1, 0] · transposes_S60x256_S256x60_1_0) : (⟨S60x256, .f32⟩ : BufTy).Contents (Elt F) → (⟨S256x60, .f32⟩ : BufTy).Contents (Elt F)),
    StableHlo.binary main_v17 main_v18 main_v19 ((fun l r => Host.dotGeneral dot_S8x256_S256x60_S8x60_1_0_0_1_n_n none l r) : (⟨S8x256, .f32⟩ : BufTy).Contents (Elt F) → (⟨S256x60, .f32⟩ : BufTy).Contents (Elt F) → (⟨S8x60, .f32⟩ : BufTy).Contents (Elt F)),
    StableHlo.unary main_arg5 main_v20 (broadcastInDim S1x60 ![1] bcast_S60_S1x60_1 : (⟨S60, .f32⟩ : BufTy).Contents (Elt F) → (⟨S1x60, .f32⟩ : BufTy).Contents (Elt F)),
    StableHlo.unary main_v20 main_v21 (broadcastInDim S8x60 ![0, 1] bcast_S1x60_S8x60_0_1 : (⟨S1x60, .f32⟩ : BufTy).Contents (Elt F) → (⟨S8x60, .f32⟩ : BufTy).Contents (Elt F)),
    StableHlo.binary main_v19 main_v21 main_v22 (addf : (⟨S8x60, .f32⟩ : BufTy).Contents (Elt F) → (⟨S8x60, .f32⟩ : BufTy).Contents (Elt F) → (⟨S8x60, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S8x60, .f32⟩) (broadcastInDim S8x60 ![] bcast_S_S8x60),
    StableHlo.TRef.binary (.of main_v22 : StableHlo.TRef sig ⟨S8x60, .f32⟩) (.of main_call1_v0 : StableHlo.TRef sig ⟨S8x60, .f32⟩) (.of main_v23 : StableHlo.TRef sig ⟨S8x60, .f32⟩) maximumf,
    StableHlo.unary main_arg6 main_v24 ((transpose S60x16 [1, 0] · transposes_S16x60_S60x16_1_0) : (⟨S16x60, .f32⟩ : BufTy).Contents (Elt F) → (⟨S60x16, .f32⟩ : BufTy).Contents (Elt F)),
    StableHlo.binary main_v23 main_v24 main_v25 ((fun l r => Host.dotGeneral dot_S8x60_S60x16_S8x16_1_0_0_1_n_n none l r) : (⟨S8x60, .f32⟩ : BufTy).Contents (Elt F) → (⟨S60x16, .f32⟩ : BufTy).Contents (Elt F) → (⟨S8x16, .f32⟩ : BufTy).Contents (Elt F)),
    StableHlo.unary main_arg7 main_v26 (broadcastInDim S1x16 ![1] bcast_S16_S1x16_1 : (⟨S16, .f32⟩ : BufTy).Contents (Elt F) → (⟨S1x16, .f32⟩ : BufTy).Contents (Elt F)),
    StableHlo.unary main_v26 main_v27 (broadcastInDim S8x16 ![0, 1] bcast_S1x16_S8x16_0_1 : (⟨S1x16, .f32⟩ : BufTy).Contents (Elt F) → (⟨S8x16, .f32⟩ : BufTy).Contents (Elt F)),
    StableHlo.binary main_v25 main_v27 main_v28 (addf : (⟨S8x16, .f32⟩ : BufTy).Contents (Elt F) → (⟨S8x16, .f32⟩ : BufTy).Contents (Elt F) → (⟨S8x16, .f32⟩ : BufTy).Contents (Elt F)),
    StableHlo.nullary main_cst_2 (constant S_ .f32 0x3F800000#32),
    StableHlo.unary main_cst_2 main_v29 (broadcastInDim S8x16 ![] bcast_S_S8x16 : (⟨S_, .f32⟩ : BufTy).Contents (Elt F) → (⟨S8x16, .f32⟩ : BufTy).Contents (Elt F)),
    StableHlo.binary main_v28 main_v29 main_v30 (Host.divf : (⟨S8x16, .f32⟩ : BufTy).Contents (Elt F) → (⟨S8x16, .f32⟩ : BufTy).Contents (Elt F) → (⟨S8x16, .f32⟩ : BufTy).Contents (Elt F)),
    StableHlo.nullary main_cst_3 (constant S_ .f32 0xFF800000#32),
    StableHlo.binary main_v30 main_cst_3 main_v31 ((fun x v => Host.reduce FloatOps.maximumf x v reducesTo_S8x16_S8_d1 h_S_) : (⟨S8x16, .f32⟩ : BufTy).Contents (Elt F) → (⟨S_, .f32⟩ : BufTy).Contents (Elt F) → (⟨S8, .f32⟩ : BufTy).Contents (Elt F)),
    StableHlo.nullary main_cst_4 (constant S_ .f32 0xFF800000#32),
    StableHlo.unary main_cst_4 main_v32 (broadcastInDim S8 ![] bcast_S_S8 : (⟨S_, .f32⟩ : BufTy).Contents (Elt F) → (⟨S8, .f32⟩ : BufTy).Contents (Elt F)),
    StableHlo.binary main_v32 main_v31 main_v33 (maximumf : (⟨S8, .f32⟩ : BufTy).Contents (Elt F) → (⟨S8, .f32⟩ : BufTy).Contents (Elt F) → (⟨S8, .f32⟩ : BufTy).Contents (Elt F)),
    StableHlo.unary main_v33 main_v34 (broadcastInDim S8x1 ![0] bcast_S8_S8x1_0 : (⟨S8, .f32⟩ : BufTy).Contents (Elt F) → (⟨S8x1, .f32⟩ : BufTy).Contents (Elt F)),
    StableHlo.unary main_v34 main_v35 (broadcastInDim S8x16 ![0, 1] bcast_S8x1_S8x16_0_1 : (⟨S8x1, .f32⟩ : BufTy).Contents (Elt F) → (⟨S8x16, .f32⟩ : BufTy).Contents (Elt F)),
    StableHlo.binary main_v30 main_v35 main_v36 (subf : (⟨S8x16, .f32⟩ : BufTy).Contents (Elt F) → (⟨S8x16, .f32⟩ : BufTy).Contents (Elt F) → (⟨S8x16, .f32⟩ : BufTy).Contents (Elt F)),
    StableHlo.unary main_v36 main_v37 (Host.exp : (⟨S8x16, .f32⟩ : BufTy).Contents (Elt F) → (⟨S8x16, .f32⟩ : BufTy).Contents (Elt F)),
    StableHlo.nullary main_cst_5 (constant S_ .f32 0x00000000#32),
    StableHlo.binary main_v37 main_cst_5 main_v38 ((fun x v => Host.reduceAdd x v reducesTo_S8x16_S8_d1 h_S_) : (⟨S8x16, .f32⟩ : BufTy).Contents (Elt F) → (⟨S_, .f32⟩ : BufTy).Contents (Elt F) → (⟨S8, .f32⟩ : BufTy).Contents (Elt F)),
    StableHlo.unary main_v38 main_v39 (broadcastInDim S8x1 ![0] bcast_S8_S8x1_0 : (⟨S8, .f32⟩ : BufTy).Contents (Elt F) → (⟨S8x1, .f32⟩ : BufTy).Contents (Elt F)),
    StableHlo.unary main_v39 main_v40 (broadcastInDim S8x16 ![0, 1] bcast_S8x1_S8x16_0_1 : (⟨S8x1, .f32⟩ : BufTy).Contents (Elt F) → (⟨S8x16, .f32⟩ : BufTy).Contents (Elt F)),
    StableHlo.binary main_v37 main_v40 main_v41 (Host.divf : (⟨S8x16, .f32⟩ : BufTy).Contents (Elt F) → (⟨S8x16, .f32⟩ : BufTy).Contents (Elt F) → (⟨S8x16, .f32⟩ : BufTy).Contents (Elt F)),
    StableHlo.unary main_arg8 main_v42 ((transpose S16x65536 [1, 0] · transposes_S65536x16_S16x65536_1_0) : (⟨S65536x16, .f32⟩ : BufTy).Contents (Elt F) → (⟨S16x65536, .f32⟩ : BufTy).Contents (Elt F)),
    StableHlo.binary main_v41 main_v42 main_v43 ((fun l r => Host.dotGeneral dot_S8x16_S16x65536_S8x65536_1_0_0_1_n_n none l r) : (⟨S8x16, .f32⟩ : BufTy).Contents (Elt F) → (⟨S16x65536, .f32⟩ : BufTy).Contents (Elt F) → (⟨S8x65536, .f32⟩ : BufTy).Contents (Elt F)),
    StableHlo.reshape main_v43 main_v44 rfl shapeCasts_S8x65536_S8x16x4096,
    StableHlo.unary main_v44 main_v45 ((transpose S8x4096x16 [0, 2, 1] · transposes_S8x16x4096_S8x4096x16_0_2_1) : (⟨S8x16x4096, .f32⟩ : BufTy).Contents (Elt F) → (⟨S8x4096x16, .f32⟩ : BufTy).Contents (Elt F)),
    StableHlo.unary main_arg9 main_v46 ((transpose S16x65536 [1, 0] · transposes_S65536x16_S16x65536_1_0) : (⟨S65536x16, .f32⟩ : BufTy).Contents (Elt F) → (⟨S16x65536, .f32⟩ : BufTy).Contents (Elt F)),
    StableHlo.binary main_v41 main_v46 main_v47 ((fun l r => Host.dotGeneral dot_S8x16_S16x65536_S8x65536_1_0_0_1_n_n none l r) : (⟨S8x16, .f32⟩ : BufTy).Contents (Elt F) → (⟨S16x65536, .f32⟩ : BufTy).Contents (Elt F) → (⟨S8x65536, .f32⟩ : BufTy).Contents (Elt F)),
    StableHlo.reshape main_v47 main_v48 rfl shapeCasts_S8x65536_S8x16x4096,
    StableHlo.binary main_arg0 main_v45 main_v49 ((fun l r => Host.dotGeneral dot_S8x2048x4096_S8x4096x16_S8x2048x16_2_1_1_2_0_0 none l r) : (⟨S8x2048x4096, .f32⟩ : BufTy).Contents (Elt F) → (⟨S8x4096x16, .f32⟩ : BufTy).Contents (Elt F) → (⟨S8x2048x16, .f32⟩ : BufTy).Contents (Elt F)),
    StableHlo.binary main_v49 main_v48 main_v50 ((fun l r => Host.dotGeneral dot_S8x2048x16_S8x16x4096_S8x2048x4096_2_1_1_2_0_0 none l r) : (⟨S8x2048x16, .f32⟩ : BufTy).Contents (Elt F) → (⟨S8x16x4096, .f32⟩ : BufTy).Contents (Elt F) → (⟨S8x2048x4096, .f32⟩ : BufTy).Contents (Elt F)),
    StableHlo.nullary main_cst_6 (constant S_ .f32 0x40000000#32),
    StableHlo.unary main_cst_6 main_v51 (broadcastInDim S8x2048x4096 ![] bcast_S_S8x2048x4096 : (⟨S_, .f32⟩ : BufTy).Contents (Elt F) → (⟨S8x2048x4096, .f32⟩ : BufTy).Contents (Elt F)),
    StableHlo.binary main_v50 main_v51 main_v52 (mulf : (⟨S8x2048x4096, .f32⟩ : BufTy).Contents (Elt F) → (⟨S8x2048x4096, .f32⟩ : BufTy).Contents (Elt F) → (⟨S8x2048x4096, .f32⟩ : BufTy).Contents (Elt F)) ]

-- the binds re-associated: the rewrite under the chain recurses once per statement
set_option maxRecDepth 16384 in
set_option maxHeartbeats 4000000 in
/-- @main is that straight line: the two windows and the called functions unfolded at their calls, both sides are one
    chain of steps once sequencing is re-associated. -/
theorem main_eq (c : Dev nD) : main (F := F) c = seq ops := by
  simp only [main, main_part0, main_part1, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., reshape_bufs_sub .., unary_bufs_sub .., unary_bufs_sub .., binary_bufs_sub .., reshape_bufs_sub .., binary_bufs_sub .., binary_bufs_sub .., nullary_bufs_sub .., unary_bufs_sub .., binary_bufs_sub ..⟩

attribute [local irreducible] Host.reduce Host.reduceAdd transpose shapeCast broadcastInDim in
set_option maxRecDepth 16384 in
set_option maxHeartbeats 4000000 in
/-- The result buffer after the line, from any contents `V`: each operation's result at its own buffer is its
    function of its operands' buffers and every other buffer is left, so the fold unrolls to the operations'
    composition over `V` at the ten arguments; that composition is `Terms.refOut` over the routing weights and the two
    factor arrays by unfolding the definitions (the row mean computed once for the normalization and once inside the
    variance, the exponentials shared by the softmax's numerator and denominator, the routing weights shared by the two
    factor arrays).  The reductions, transpositions, re-readings and broadcasts are kept folded meanwhile: the equation
    never looks inside them. -/
theorem out_eq (V : Valuation τ sig (Elt F)) :
    after ops V (main_v52 : DevRef τ sig)
      = Terms.refOut (V (main_arg0 : DevRef τ sig)) (Terms.adapters (Terms.gate (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig))) (V (main_arg8 : DevRef τ sig))) (Terms.adapters (Terms.gate (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig))) (V (main_arg9 : DevRef τ sig))) := by
  after_results_simp
  rfl

set_option maxRecDepth 16384 in
set_option maxHeartbeats 4000000 in
/-- No operation of the line writes argument 0's buffer: it holds after the line what it held before. -/
theorem arg0_eq (V : Valuation τ sig (Elt F)) :
    after ops V (main_arg0 : DevRef τ sig) = V (main_arg0 : DevRef τ sig) := by
  after_results_simp

set_option maxRecDepth 16384 in
set_option maxHeartbeats 4000000 in
/-- No operation of the line writes argument 1's buffer: it holds after the line what it held before. -/
theorem arg1_eq (V : Valuation τ sig (Elt F)) :
    after ops V (main_arg1 : DevRef τ sig) = V (main_arg1 : DevRef τ sig) := by
  after_results_simp

set_option maxRecDepth 16384 in
set_option maxHeartbeats 4000000 in
/-- No operation of the line writes argument 2's buffer: it holds after the line what it held before. -/
theorem arg2_eq (V : Valuation τ sig (Elt F)) :
    after ops V (main_arg2 : DevRef τ sig) = V (main_arg2 : DevRef τ sig) := by
  after_results_simp

set_option maxRecDepth 16384 in
set_option maxHeartbeats 4000000 in
/-- No operation of the line writes argument 3's buffer: it holds after the line what it held before. -/
theorem arg3_eq (V : Valuation τ sig (Elt F)) :
    after ops V (main_arg3 : DevRef τ sig) = V (main_arg3 : DevRef τ sig) := by
  after_results_simp

set_option maxRecDepth 16384 in
set_option maxHeartbeats 4000000 in
/-- No operation of the line writes argument 4's buffer: it holds after the line what it held before. -/
theorem arg4_eq (V : Valuation τ sig (Elt F)) :
    after ops V (main_arg4 : DevRef τ sig) = V (main_arg4 : DevRef τ sig) := by
  after_results_simp

set_option maxRecDepth 16384 in
set_option maxHeartbeats 4000000 in
/-- No operation of the line writes argument 5's buffer: it holds after the line what it held before. -/
theorem arg5_eq (V : Valuation τ sig (Elt F)) :
    after ops V (main_arg5 : DevRef τ sig) = V (main_arg5 : DevRef τ sig) := by
  after_results_simp

set_option maxRecDepth 16384 in
set_option maxHeartbeats 4000000 in
/-- No operation of the line writes argument 6's buffer: it holds after the line what it held before. -/
theorem arg6_eq (V : Valuation τ sig (Elt F)) :
    after ops V (main_arg6 : DevRef τ sig) = V (main_arg6 : DevRef τ sig) := by
  after_results_simp

set_option maxRecDepth 16384 in
set_option maxHeartbeats 4000000 in
/-- No operation of the line writes argument 7's buffer: it holds after the line what it held before. -/
theorem arg7_eq (V : Valuation τ sig (Elt F)) :
    after ops V (main_arg7 : DevRef τ sig) = V (main_arg7 : DevRef τ sig) := by
  after_results_simp

set_option maxRecDepth 16384 in
set_option maxHeartbeats 4000000 in
/-- No operation of the line writes argument 8's buffer: it holds after the line what it held before. -/
theorem arg8_eq (V : Valuation τ sig (Elt F)) :
    after ops V (main_arg8 : DevRef τ sig) = V (main_arg8 : DevRef τ sig) := by
  after_results_simp

set_option maxRecDepth 16384 in
set_option maxHeartbeats 4000000 in
/-- No operation of the line writes argument 9's buffer: it holds after the line what it held before. -/
theorem arg9_eq (V : Valuation τ sig (Elt F)) :
    after ops V (main_arg9 : DevRef τ sig) = V (main_arg9 : DevRef τ sig) := by
  after_results_simp

/-- On every device, for any float values, from any memory with zero counters: every weakly fair execution of
    @main terminates with the result buffer at `Terms.refOut` of the arguments' launch contents and the ten arguments
    unchanged (no operation of the line writes an argument's buffer). -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52)
        = Terms.refOut (m ((c.tc : Thread nD τ).loc main_arg0))
            (Terms.adapters (Terms.gate (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)))
            (Terms.adapters (Terms.gate (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v52).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.ReferenceIdeal.HandRun

end
-- ==== Proof.lean ====
/-
  Both programs compute, for x : [8,2048,4096] and routing inputs (a controller state h : [8,256], layer-norm scale and
  shift, two small linear layers W1, b1, W2, b2, and two adapter generators Wa, Wb : [65536,16]),

      gate      = softmax of ((max(layerNorm(h)·W1ᵀ + b1, 0))·W2ᵀ + b2) / 1          [8,16]
      A[b,r,i]  = (gate · Waᵀ)[b, 4096·r + i],     B[b,r,o] = (gate · Wbᵀ)[b, 4096·r + o]
      out[b,s,o] = 2 · Σ_{r<16} (Σ_{i<4096} x[b,s,i] · A[b,r,i]) · B[b,r,o].

  The kernel forms B·2 on the host and, per grid point (batch b, block of 256 rows), multiplies the rows of x by Aᵀ and the
  result by B·2 (both products into a zero accumulator; the bf16 roundings are the identity at the ideal values). The
  reference transposes A, contracts twice and multiplies the result by 2. The routing prefix is the same function of the
  same arguments in both. So at the ideal values
    · the kernel's output array is `lowRank x A (B·2)`, where `lowRank x A B [b,s,o] = Σ_r (Σ_i x[b,s,i]·A[b,r,i])·B[b,r,o]`,
    · the reference's is `(lowRank x A B)·2`, entry by entry,
  and the two agree because the nonnegative real 2 moves across the finite sum over r, for arbitrary extended-real
  summands — the precondition that inputs are finite is not used by the value claim.
  The three frames are the programs' runs with the results dropped; the idealization rewrote nothing, so `preserves` is
  trivially true.
-/
import proofs.«153385_j67353677136189_2_alg».proof.Defs
import proofs.«153385_j67353677136189_2_alg».proof.Proof.Gen.Kernel
import proofs.«153385_j67353677136189_2_alg».proof.Proof.Gen.Kernel.Skeleton
import proofs.«153385_j67353677136189_2_alg».proof.Proof.Gen.Kernel.Launch
import proofs.«153385_j67353677136189_2_alg».proof.Proof.Gen.Kernel.Points
import proofs.«153385_j67353677136189_2_alg».proof.Proof.Gen.Kernel.Frame
import proofs.«153385_j67353677136189_2_alg».proof.Proof.Gen.KernelIdeal
import proofs.«153385_j67353677136189_2_alg».proof.Proof.Gen.KernelIdeal.Skeleton
import proofs.«153385_j67353677136189_2_alg».proof.Proof.Gen.KernelIdeal.Launch
import proofs.«153385_j67353677136189_2_alg».proof.Proof.Gen.KernelIdeal.Points
import proofs.«153385_j67353677136189_2_alg».proof.Proof.Gen.KernelIdeal.Frame
import proofs.«153385_j67353677136189_2_alg».proof.Proof.Gen.KernelIdeal.Value
import proofs.«153385_j67353677136189_2_alg».proof.Proof.Gen.ReferenceIdeal
import proofs.«153385_j67353677136189_2_alg».proof.Proof.Gen.Pre_finite_inputs
import proofs.«153385_j67353677136189_2_alg».proof.Proof.GateEq
import proofs.«153385_j67353677136189_2_alg».proof.Proof.Algebra
import proofs.«153385_j67353677136189_2_alg».proof.Proof.KernelHost
import proofs.«153385_j67353677136189_2_alg».proof.Proof.KernelValue
import proofs.«153385_j67353677136189_2_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- From memories that agree on the arguments the kernel ends at `lowRank x A (B·2)` and the reference at
    `(lowRank x A B)·2`, with the same `A` and `B` of the same arguments: one array. -/
theorem algebraic : Cert.algebraic_KernelIdeal_ReferenceIdeal := by
  intro m ρ m' ρ' _ hagree
  refine ⟨_, Cert.KernelIdeal.BlockValue.run m ρ, ?_⟩
  refine (θ_run Cert.ReferenceIdeal.defs _ _).mono (fun _ h c => ⟨(h c).1.trans ?_, (h c).2⟩)
    (Cert.ReferenceIdeal.HandRun.run (F := Ideal) m' ρ')
  obtain ⟨h0, h1, h2, h3, h4, h5, h6, h7, h8, h9⟩ := hagree c
  rw [h0, h1, h2, h3, h4, h5, h6, h7, h8, h9, Cert.KernelIdeal.Gen.V_main_arg0, Cert.KernelIdeal.HostVals.V_factorA,
    Cert.KernelIdeal.HostVals.V_factorB, Cert.ReferenceIdeal.RefValue.lowRank_scaled_eq_refOut, Cert.Bridge.gate_eq,
    Cert.Bridge.adapters_eq, Cert.Bridge.adapters_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
